-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S256 .f32) (main_arg6 : FVec F S256x128 .f32) (main_arg7 : FVec F S128 .f32) (main_arg8 : FVec F S128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x800000 32) (main_arg2 : FVec F S512x256 .f32) (main_arg3 : FVec F S256 .f32) (main_arg4 : FVec F S256 .f32) (main_arg5 : FVec F S256 .f32) (main_arg6 : FVec F S256x128 .f32) (main_arg7 : FVec F S128 .f32) (main_arg8 : FVec F S128 .f32) (main_arg9 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S2000 : Shape := ⟨1, ![2000]⟩
abbrev S2000x1 : Shape := ⟨2, ![2000, 1]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩

abbrev nBuf : Space → Nat
  | .hbm => 125
  | .vmem => 24
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S50000x256, .f32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x256, .f32⟩
  | .hbm, ⟨60, _⟩ => ⟨S850000x1, .f32⟩
  | .hbm, ⟨61, _⟩ => ⟨S850000x256, .f32⟩
  | .hbm, ⟨62, _⟩ => ⟨S850000x256, .f32⟩
  | .hbm, ⟨63, _⟩ => ⟨S_, .f32⟩
  | .hbm, ⟨64, _⟩ => ⟨S50000x256, .f32⟩
  | .hbm, ⟨65, _⟩ => ⟨S850000x1, .i32⟩
  | .hbm, ⟨66, _⟩ => ⟨S50000x256, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S50000x256, .f32⟩
  | .hbm, ⟨71, _⟩ => ⟨S50000x128, .f32⟩
  | .hbm, ⟨72, _⟩ => ⟨S_, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000, .f32⟩
  | .hbm, ⟨104, _⟩ => ⟨S850000, .f32⟩
  | .hbm, ⟨105, _⟩ => ⟨S_, .i32⟩
  | .hbm, ⟨106, _⟩ => ⟨S850000, .i32⟩
  | .hbm, ⟨107, _⟩ => ⟨S850000, .i1⟩
  | .hbm, ⟨108, _⟩ => ⟨S_, .i32⟩
  | .hbm, ⟨109, _⟩ => ⟨S850000, .i32⟩
  | .hbm, ⟨110, _⟩ => ⟨S850000, .i32⟩
  | .hbm, ⟨111, _⟩ => ⟨S850000, .i32⟩
  | .hbm, ⟨112, _⟩ => ⟨S850000x1, .i32⟩
  | .hbm, ⟨113, _⟩ => ⟨S850000x128, .f32⟩
  | .hbm, ⟨114, _⟩ => ⟨S850000x1, .f32⟩
  | .hbm, ⟨115, _⟩ => ⟨S850000x128, .f32⟩
  | .hbm, ⟨116, _⟩ => ⟨S850000x128, .f32⟩
  | .hbm, ⟨117, _⟩ => ⟨S_, .f32⟩
  | .hbm, ⟨118, _⟩ => ⟨S50000x128, .f32⟩
  | .hbm, ⟨119, _⟩ => ⟨S850000x1, .i32⟩
  | .hbm, ⟨120, _⟩ => ⟨S50000x128, .f32⟩
  | .hbm, ⟨121, _⟩ => ⟨S1x128, .f32⟩
  | .hbm, ⟨122, _⟩ => ⟨S1x128, .f32⟩
  | .hbm, ⟨123, _⟩ => ⟨S1x128, .f32⟩
  | .hbm, ⟨124, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  broadcasts_S2000x1_S2000x128 : S2000x1.Broadcasts S2000x128
  dot_S2000x512_S512x256_S2000x256_1_0_0_1_n_n_wf : DotDims.WF S2000x512 S512x256 S2000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x256 : Shape := ⟨2, ![50000, 256]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S50000x1 : Shape := ⟨2, ![50000, 1]⟩
abbrev S50000x128 : Shape := ⟨2, ![50000, 128]⟩
abbrev S850000x128 : Shape := ⟨2, ![850000, 128]⟩
abbrev S1x128 : Shape := ⟨2, ![1, 128]⟩

abbrev nBuf : Space → Nat
  | .hbm => 184
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256, .f32⟩
  | 5 => ⟨S256, .f32⟩
  | 6 => ⟨S256x128, .f32⟩
  | 7 => ⟨S128, .f32⟩
  | 8 => ⟨S128, .f32⟩
  | 9 => ⟨S128, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S50000x256, .f32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x256, .f32⟩
  | 60 => ⟨S850000x1, .f32⟩
  | 61 => ⟨S850000x256, .f32⟩
  | 62 => ⟨S850000x256, .f32⟩
  | 63 => ⟨S_, .f32⟩
  | 64 => ⟨S50000x256, .f32⟩
  | 65 => ⟨S850000x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000, .f32⟩
  | 72 => ⟨S50000x1, .f32⟩
  | 73 => ⟨S_, .f32⟩
  | 74 => ⟨S50000x1, .f32⟩
  | 75 => ⟨S50000x1, .f32⟩
  | 76 => ⟨S50000x256, .f32⟩
  | 77 => ⟨S50000x256, .f32⟩
  | 78 => ⟨S50000x256, .f32⟩
  | 79 => ⟨S_, .f32⟩
  | 80 => ⟨S50000, .f32⟩
  | 81 => ⟨S50000x1, .f32⟩
  | 82 => ⟨S_, .f32⟩
  | 83 => ⟨S50000x1, .f32⟩
  | 84 => ⟨S50000x1, .f32⟩
  | 85 => ⟨S50000x256, .f32⟩
  | 86 => ⟨S50000x256, .f32⟩
  | 87 => ⟨S_, .f32⟩
  | 88 => ⟨S50000x1, .f32⟩
  | 89 => ⟨S50000x1, .f32⟩
  | 90 => ⟨S50000x1, .f32⟩
  | 91 => ⟨S50000x256, .f32⟩
  | 92 => ⟨S50000x256, .f32⟩
  | 93 => ⟨S1x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S50000x256, .f32⟩
  | 101 => ⟨S50000x256, .f32⟩
  | 102 => ⟨S50000x128, .f32⟩
  | 103 => ⟨S_, .f32⟩
  | 104 => ⟨S850000, .f32⟩
  | 105 => ⟨S_, .f32⟩
  | 106 => ⟨S50000, .f32⟩
  | 107 => ⟨S850000x1, .i32⟩
  | 108 => ⟨S50000, .f32⟩
  | 109 => ⟨S_, .f32⟩
  | 110 => ⟨S50000, .f32⟩
  | 111 => ⟨S50000, .i1⟩
  | 112 => ⟨S50000, .f32⟩
  | 113 => ⟨S_, .f32⟩
  | 114 => ⟨S_, .f32⟩
  | 115 => ⟨S50000, .f32⟩
  | 116 => ⟨S50000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000, .f32⟩
  | 126 => ⟨S_, .i32⟩
  | 127 => ⟨S850000, .i32⟩
  | _ => ⟨S50000x512, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000, .f32⟩
  | 7 => ⟨S850000, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x128, .f32⟩
  | 17 => ⟨S850000x1, .f32⟩
  | 18 => ⟨S850000x128, .f32⟩
  | 19 => ⟨S850000x128, .f32⟩
  | 20 => ⟨S_, .f32⟩
  | 21 => ⟨S50000x128, .f32⟩
  | 22 => ⟨S850000x1, .i32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S50000, .f32⟩
  | 29 => ⟨S50000x1, .f32⟩
  | 30 => ⟨S_, .f32⟩
  | 31 => ⟨S50000x1, .f32⟩
  | 32 => ⟨S50000x1, .f32⟩
  | 33 => ⟨S50000x128, .f32⟩
  | 34 => ⟨S50000x128, .f32⟩
  | 35 => ⟨S50000x128, .f32⟩
  | 36 => ⟨S_, .f32⟩
  | 37 => ⟨S50000, .f32⟩
  | 38 => ⟨S50000x1, .f32⟩
  | 39 => ⟨S_, .f32⟩
  | 40 => ⟨S50000x1, .f32⟩
  | 41 => ⟨S50000x1, .f32⟩
  | 42 => ⟨S50000x128, .f32⟩
  | 43 => ⟨S50000x128, .f32⟩
  | 44 => ⟨S_, .f32⟩
  | 45 => ⟨S50000x1, .f32⟩
  | 46 => ⟨S50000x1, .f32⟩
  | 47 => ⟨S50000x1, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call1_cst : Ref sig .tc := ⟨.hbm, 99, rfl⟩
abbrev main_call1_v0 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_cst_15 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_17 : Ref sig .tc := ⟨.hbm, 113, rfl⟩
abbrev main_call2_v0 : Ref sig .tc := ⟨.hbm, 114, rfl⟩
abbrev main_call2_v1 : Ref sig .tc := ⟨.hbm, 115, rfl⟩
abbrev main_v80 : Ref sig .tc := ⟨.hbm, 116, rfl⟩
abbrev main_c_18 : Ref sig .tc := ⟨.hbm, 117, rfl⟩
abbrev main_v81 : Ref sig .tc := ⟨.hbm, 118, rfl⟩
abbrev main_v82 : Ref sig .tc := ⟨.hbm, 119, rfl⟩
abbrev main_c_19 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_20 : Ref sig .tc := ⟨.hbm, 126, rfl⟩
abbrev main_v88 : Ref sig .tc := ⟨.hbm, 127, rfl⟩
abbrev main_v89 : Ref sig .tc := ⟨.hbm, 128, rfl⟩
abbrev main_c_21 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_22 : Ref sig .tc := ⟨.hbm, 136, rfl⟩
abbrev main_v96 : Ref sig .tc := ⟨.hbm, 137, rfl⟩
abbrev main_v97 : Ref sig .tc := ⟨.hbm, 138, rfl⟩
abbrev main_c_23 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_24 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_25 : Ref sig .tc := ⟨.hbm, 155, rfl⟩
abbrev main_v112 : Ref sig .tc := ⟨.hbm, 156, rfl⟩
abbrev main_v113 : Ref sig .tc := ⟨.hbm, 157, rfl⟩
abbrev main_cst_26 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_27 : Ref sig .tc := ⟨.hbm, 164, rfl⟩
abbrev main_v119 : Ref sig .tc := ⟨.hbm, 165, rfl⟩
abbrev main_v120 : Ref sig .tc := ⟨.hbm, 166, rfl⟩
abbrev main_cst_28 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_29 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000x1_S50000x128_0_1 : S50000x1.BroadcastsInDim S50000x128 (![0, 1] : Fin 2 → Fin S50000x128.rank)
  dot_S50000x512_S512x256_S50000x256_1_0_0_1_n_n_wf : DotDims.WF S50000x512 S512x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result array named.  @main is eleven segments: stretches of host operations and four
  pallas regions.  The buffer contents at each segment boundary are a fold from the launch memory; the last boundary's
  contents are `Gen.W11`.  The frame run ends with every unscoped buffer at those contents, so the result buffer ends at
  `W11` read at the result's reference, and every argument ends as launched.
-/
import proofs.«155982_j13099650253144_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault; the result buffer ends at the
    last segment boundary's contents and the ten arguments end as launched. -/
theorem run_out : θ_run defs (onTc (τ := τ) (main (F := F))) ⟨m, fun _ => 0, ρ⟩ (fun r => ∀ c : Dev nD,
      r.2.mem ((c.tc : Thread nD τ).loc main_v88) = W11 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v88 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.KernelIdeal.Hand

end
-- ==== Proof.Fold1.lean ====
/-
  The host operations of the idealized kernel's @main before its first region and between its first and second regions,
  read as functions of the buffer contents `W` they start from.  The first stretch builds the edge lists: the source and
  target rows of `edge_index`, each followed by the self-loop `0 … 49999`.  The stretches after the first matrix product
  aggregate it along the edges (read in another module) and lay the three parameter vectors of the first normalisation out as rows.  Every other buffer read later is left alone.
-/
import proofs.«155982_j13099650253144_1_alg».proof.Proof.Gen.KernelIdeal.Launch
import proofs.«155982_j13099650253144_1_alg».proof.Proof.RefRead
import Idealize.ShloMosaic.Lib.StableHlo.Run

set_option maxRecDepth 16384
set_option maxHeartbeats 4000000

noncomputable section

namespace Cert.KernelIdeal.Hand.Fold

open Cert.KernelIdeal Cert.KernelIdeal.Gen Idealize.ShloMosaic Idealize.ShloMosaic.StableHlo Idealize.ShloMosaic.TcCoe
open Cert.ReferenceIdeal.ReadP

variable (W : Valuation τ sig (Elt Ideal))

/-! ## Before the first region -/

/-- The source list: the reference's. -/
theorem launch_src : after hostOps0 W (Proc.devRef .tc main_v3) = val_main_v3 (F := Ideal) (W (Proc.devRef .tc main_arg1)) := by
  after_results <;> rfl

/-- The target list: the reference's. -/
theorem launch_dst : after hostOps0 W (Proc.devRef .tc main_v6) = val_main_v6 (F := Ideal) (W (Proc.devRef .tc main_arg1)) := by
  after_results <;> rfl

theorem launch_keep_arg0 : after hostOps0 W (Proc.devRef .tc main_arg0) = W (Proc.devRef .tc main_arg0) := by
  after_results <;> rfl
theorem launch_keep_arg2 : after hostOps0 W (Proc.devRef .tc main_arg2) = W (Proc.devRef .tc main_arg2) := by
  after_results <;> rfl
theorem launch_keep_arg3 : after hostOps0 W (Proc.devRef .tc main_arg3) = W (Proc.devRef .tc main_arg3) := by
  after_results <;> rfl
theorem launch_keep_arg4 : after hostOps0 W (Proc.devRef .tc main_arg4) = W (Proc.devRef .tc main_arg4) := by
  after_results <;> rfl
theorem launch_keep_arg5 : after hostOps0 W (Proc.devRef .tc main_arg5) = W (Proc.devRef .tc main_arg5) := by
  after_results <;> rfl
theorem launch_keep_arg6 : after hostOps0 W (Proc.devRef .tc main_arg6) = W (Proc.devRef .tc main_arg6) := by
  after_results <;> rfl
theorem launch_keep_arg7 : after hostOps0 W (Proc.devRef .tc main_arg7) = W (Proc.devRef .tc main_arg7) := by
  after_results <;> rfl
theorem launch_keep_arg8 : after hostOps0 W (Proc.devRef .tc main_arg8) = W (Proc.devRef .tc main_arg8) := by
  after_results <;> rfl
theorem launch_keep_arg9 : after hostOps0 W (Proc.devRef .tc main_arg9) = W (Proc.devRef .tc main_arg9) := by
  after_results <;> rfl

/-! ## Between the first and the second region -/

/-- The three stretches between the first matrix product and the first normalisation. -/
abbrev mid1 : Valuation τ sig (Elt Ideal) := after hostOps1_2 (after hostOps1_1 (after hostOps1 W))

theorem mid1_bias : mid1 W (Proc.devRef .tc main_v44) = shapeCast S1x256 (W (Proc.devRef .tc main_arg3)) shapeCasts_S256_S1x256 := by
  after_results <;> rfl
theorem mid1_scale : mid1 W (Proc.devRef .tc main_v45) = shapeCast S1x256 (W (Proc.devRef .tc main_arg4)) shapeCasts_S256_S1x256 := by
  after_results <;> rfl
theorem mid1_shift : mid1 W (Proc.devRef .tc main_v46) = shapeCast S1x256 (W (Proc.devRef .tc main_arg5)) shapeCasts_S256_S1x256 := by
  after_results <;> rfl

theorem mid1_keep_main_v3 : mid1 W (Proc.devRef .tc main_v3) = W (Proc.devRef .tc main_v3) := by
  after_results <;> rfl
theorem mid1_keep_main_v6 : mid1 W (Proc.devRef .tc main_v6) = W (Proc.devRef .tc main_v6) := by
  after_results <;> rfl
theorem mid1_keep_main_arg6 : mid1 W (Proc.devRef .tc main_arg6) = W (Proc.devRef .tc main_arg6) := by
  after_results <;> rfl
theorem mid1_keep_main_arg7 : mid1 W (Proc.devRef .tc main_arg7) = W (Proc.devRef .tc main_arg7) := by
  after_results <;> rfl
theorem mid1_keep_main_arg8 : mid1 W (Proc.devRef .tc main_arg8) = W (Proc.devRef .tc main_arg8) := by
  after_results <;> rfl
theorem mid1_keep_main_arg9 : mid1 W (Proc.devRef .tc main_arg9) = W (Proc.devRef .tc main_arg9) := by
  after_results <;> rfl

end Cert.KernelIdeal.Hand.Fold

end
-- ==== Proof.Fold2.lean ====
/-
  The host operations of the idealized kernel's @main between its third and fourth regions, read as functions of the buffer
  contents `W` they start from: the three parameter vectors of the second
  normalisation laid out as rows (the aggregation itself is read in another module).
-/
import proofs.«155982_j13099650253144_1_alg».proof.Proof.Gen.KernelIdeal.Launch
import proofs.«155982_j13099650253144_1_alg».proof.Proof.RefRead
import Idealize.ShloMosaic.Lib.StableHlo.Run

set_option maxRecDepth 16384
set_option maxHeartbeats 4000000

noncomputable section

namespace Cert.KernelIdeal.Hand.Fold

open Cert.KernelIdeal Cert.KernelIdeal.Gen Idealize.ShloMosaic Idealize.ShloMosaic.StableHlo Idealize.ShloMosaic.TcCoe
open Cert.ReferenceIdeal.ReadP

variable (W : Valuation τ sig (Elt Ideal))

/-- The three stretches between the second matrix product and the second normalisation. -/
abbrev mid2 : Valuation τ sig (Elt Ideal) := after hostOps3_2 (after hostOps3_1 (after hostOps3 W))

theorem mid2_bias : mid2 W (Proc.devRef .tc main_v85) = shapeCast S1x128 (W (Proc.devRef .tc main_arg7)) shapeCasts_S128_S1x128 := by
  after_results <;> rfl
theorem mid2_scale : mid2 W (Proc.devRef .tc main_v86) = shapeCast S1x128 (W (Proc.devRef .tc main_arg8)) shapeCasts_S128_S1x128 := by
  after_results <;> rfl
theorem mid2_shift : mid2 W (Proc.devRef .tc main_v87) = shapeCast S1x128 (W (Proc.devRef .tc main_arg9)) shapeCasts_S128_S1x128 := by
  after_results <;> rfl

end Cert.KernelIdeal.Hand.Fold

end
-- ==== Proof.LibTypedRef.lean ====
/-
  A typed reference `x : TRef sig T` carries contents of type `T.Contents` to and from its buffer's own contents type along the
  equation `x.ref.ty = T`.  The transport changes nothing: carried to the buffer a value is (heterogeneously) itself, and carried
  there and back it is itself.  A host operation of an outlined function (a `where`, a `relu`) is printed over typed
  references; these two facts remove the transports its results are read through.
-/
import Idealize.ShloMosaic.Lib.StableHlo

namespace TypedRefCast

open Idealize.ShloMosaic Idealize.ShloMosaic.StableHlo

variable {sig : RefSig} {Val : EltTy → Type} {T : BufTy}

/-- Contents carried to a typed reference's buffer are the contents. -/
theorem toBuf_heq (x : TRef sig T) (v : T.Contents Val) : HEq (x.toBuf v) v := by
  obtain ⟨r, h, h2, h3⟩ := x
  subst h
  rfl

/-- Carried to the buffer and back. -/
theorem ofBuf_toBuf (x : TRef sig T) (v : T.Contents Val) : x.ofBuf (x.toBuf v) = v := by
  obtain ⟨r, h, h2, h3⟩ := x
  subst h
  rfl

end TypedRefCast
-- ==== Proof.Fold1Agg.lean ====
/-
  The first aggregation of the idealized kernel's @main, one stretch of host operations at a time, against the reference's
  stages.  The first stretch counts the in-degrees along the target list and takes their reciprocal square roots; the
  second (a `where`) replaces the factor of a vertex of degree zero by zero; the third gathers the product's rows along the
  source list, scales each by the factors of its two endpoints and adds them up per target.  The `where` is printed over typed
  references, whose transports to and from their buffers are the identity.  Each stretch applies the
  reference's operations in the reference's order, so each of its results is the reference's stage once its operands are.
-/
import proofs.«155982_j13099650253144_1_alg».proof.Proof.Gen.KernelIdeal.Launch
import proofs.«155982_j13099650253144_1_alg».proof.Proof.RefRead
import proofs.«155982_j13099650253144_1_alg».proof.Proof.LibTypedRef
import Idealize.ShloMosaic.Lib.StableHlo.Run

set_option maxRecDepth 16384
set_option maxHeartbeats 4000000

noncomputable section

namespace Cert.KernelIdeal.Hand.Fold

open Cert.KernelIdeal Cert.KernelIdeal.Gen Idealize.ShloMosaic Idealize.ShloMosaic.StableHlo Idealize.ShloMosaic.TcCoe
open Cert.ReferenceIdeal.ReadP

variable (W : Valuation τ sig (Elt Ideal))

/-! ## Degrees and their reciprocal square roots -/

theorem first_cmp (x1 : (⟨Cert.ReferenceIdeal.S2x800000, .i32⟩ : BufTy).Contents (Elt Ideal))
    (h6 : W (Proc.devRef .tc main_v6) = val_main_v6 (F := Ideal) x1) :
    after hostOps1 W (Proc.devRef .tc main_v13) = val_main_v13 (F := Ideal) x1 := by
  after_results
  rw [h6]
  rfl

theorem first_rsqrt (x1 : (⟨Cert.ReferenceIdeal.S2x800000, .i32⟩ : BufTy).Contents (Elt Ideal))
    (h6 : W (Proc.devRef .tc main_v6) = val_main_v6 (F := Ideal) x1) :
    after hostOps1 W (Proc.devRef .tc main_v14) = val_main_v14 (F := Ideal) x1 := by
  after_results
  rw [h6]
  rfl

theorem first_zero : after hostOps1 W (Proc.devRef .tc main_cst_2) = val_main_cst_2 (F := Ideal) := by
  after_results <;> rfl

theorem first_a_keep_main_v3 : after hostOps1 W (Proc.devRef .tc main_v3) = W (Proc.devRef .tc main_v3) := by
  after_results <;> rfl
theorem first_a_keep_main_v6 : after hostOps1 W (Proc.devRef .tc main_v6) = W (Proc.devRef .tc main_v6) := by
  after_results <;> rfl
theorem first_a_keep_main_v7 : after hostOps1 W (Proc.devRef .tc main_v7) = W (Proc.devRef .tc main_v7) := by
  after_results <;> rfl

/-! ## The factor of an isolated vertex is zero -/

theorem first_factor (x1 : (⟨Cert.ReferenceIdeal.S2x800000, .i32⟩ : BufTy).Contents (Elt Ideal))
    (hc : W (Proc.devRef .tc main_v13) = val_main_v13 (F := Ideal) x1)
    (hr : W (Proc.devRef .tc main_v14) = val_main_v14 (F := Ideal) x1)
    (hz : W (Proc.devRef .tc main_cst_2) = val_main_cst_2 (F := Ideal)) :
    after hostOps1_1 W (Proc.devRef .tc main_v15) = val_main_v15 (F := Ideal) x1 := by
  after_results
  have ec : W (Proc.devRef .tc main_v13) = (TRef.of (T := ⟨S50000, .i1⟩) main_v13).toBuf (val_main_v13 (F := Ideal) x1) :=
    hc.trans (eq_of_heq (TypedRefCast.toBuf_heq _ _)).symm
  have er : W (Proc.devRef .tc main_v14) = (TRef.of (T := ⟨S50000, .f32⟩) main_v14).toBuf (val_main_v14 (F := Ideal) x1) :=
    hr.trans (eq_of_heq (TypedRefCast.toBuf_heq _ _)).symm
  have ez : W (Proc.devRef .tc main_cst_2) = (TRef.of (T := ⟨S_, .f32⟩) main_cst_2).toBuf (val_main_cst_2 (F := Ideal)) :=
    hz.trans (eq_of_heq (TypedRefCast.toBuf_heq _ _)).symm
  rw [ec, er, ez]
  simp only [TypedRefCast.ofBuf_toBuf]
  exact eq_of_heq ((TypedRefCast.toBuf_heq _ _).trans (heq_of_eq rfl))

theorem first_b_keep_main_v3 : after hostOps1_1 W (Proc.devRef .tc main_v3) = W (Proc.devRef .tc main_v3) := by
  after_results <;> rfl
theorem first_b_keep_main_v6 : after hostOps1_1 W (Proc.devRef .tc main_v6) = W (Proc.devRef .tc main_v6) := by
  after_results <;> rfl
theorem first_b_keep_main_v7 : after hostOps1_1 W (Proc.devRef .tc main_v7) = W (Proc.devRef .tc main_v7) := by
  after_results <;> rfl

/-! ## Gather, scale, sum per target -/

theorem first_sum (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S512x256, .f32⟩ : BufTy).Contents (Elt Ideal))
    (hp : W (Proc.devRef .tc main_v7) = val_main_v7 (F := Ideal) x0 x2)
    (hf : W (Proc.devRef .tc main_v15) = val_main_v15 (F := Ideal) x1)
    (h3 : W (Proc.devRef .tc main_v3) = val_main_v3 (F := Ideal) x1)
    (h6 : W (Proc.devRef .tc main_v6) = val_main_v6 (F := Ideal) x1) :
    after hostOps1_2 W (Proc.devRef .tc main_v43) = val_main_v43 (F := Ideal) x0 x1 x2 := by
  after_results
  rw [hp, hf, h3, h6]
  rfl

/-- The three stretches together. -/
theorem first_agg (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S512x256, .f32⟩ : BufTy).Contents (Elt Ideal))
    (hp : W (Proc.devRef .tc main_v7) = val_main_v7 (F := Ideal) x0 x2)
    (h3 : W (Proc.devRef .tc main_v3) = val_main_v3 (F := Ideal) x1)
    (h6 : W (Proc.devRef .tc main_v6) = val_main_v6 (F := Ideal) x1) :
    after hostOps1_2 (after hostOps1_1 (after hostOps1 W)) (Proc.devRef .tc main_v43) = val_main_v43 (F := Ideal) x0 x1 x2 :=
  first_sum (after hostOps1_1 (after hostOps1 W)) x0 x1 x2
    ((first_b_keep_main_v7 (after hostOps1 W)).trans ((first_a_keep_main_v7 W).trans hp))
    (first_factor (after hostOps1 W) x1 (first_cmp W x1 h6) (first_rsqrt W x1 h6) (first_zero W))
    ((first_b_keep_main_v3 (after hostOps1 W)).trans ((first_a_keep_main_v3 W).trans h3))
    ((first_b_keep_main_v6 (after hostOps1 W)).trans ((first_a_keep_main_v6 W).trans h6))

end Cert.KernelIdeal.Hand.Fold

end
-- ==== Proof.Fold2Agg.lean ====
/-
  The second aggregation of the idealized kernel's @main, one stretch of host operations at a time, against the reference's
  stages.  The first stretch counts the in-degrees along the target list and takes their reciprocal square roots; the
  second (a `where`) replaces the factor of a vertex of degree zero by zero; the third gathers the product's rows along the
  source list, scales each by the factors of its two endpoints and adds them up per target.  The `where` is printed over typed
  references, whose transports to and from their buffers are the identity.  Each stretch applies the
  reference's operations in the reference's order, so each of its results is the reference's stage once its operands are.
-/
import proofs.«155982_j13099650253144_1_alg».proof.Proof.Gen.KernelIdeal.Launch
import proofs.«155982_j13099650253144_1_alg».proof.Proof.RefRead
import proofs.«155982_j13099650253144_1_alg».proof.Proof.LibTypedRef
import Idealize.ShloMosaic.Lib.StableHlo.Run

set_option maxRecDepth 16384
set_option maxHeartbeats 4000000

noncomputable section

namespace Cert.KernelIdeal.Hand.Fold

open Cert.KernelIdeal Cert.KernelIdeal.Gen Idealize.ShloMosaic Idealize.ShloMosaic.StableHlo Idealize.ShloMosaic.TcCoe
open Cert.ReferenceIdeal.ReadP

variable (W : Valuation τ sig (Elt Ideal))

/-! ## Degrees and their reciprocal square roots -/

theorem second_cmp (x1 : (⟨Cert.ReferenceIdeal.S2x800000, .i32⟩ : BufTy).Contents (Elt Ideal))
    (h6 : W (Proc.devRef .tc main_v6) = val_main_v6 (F := Ideal) x1) :
    after hostOps3 W (Proc.devRef .tc main_v54) = val_main_v78 (F := Ideal) x1 := by
  after_results
  rw [h6]
  rfl

theorem second_rsqrt (x1 : (⟨Cert.ReferenceIdeal.S2x800000, .i32⟩ : BufTy).Contents (Elt Ideal))
    (h6 : W (Proc.devRef .tc main_v6) = val_main_v6 (F := Ideal) x1) :
    after hostOps3 W (Proc.devRef .tc main_v55) = val_main_v79 (F := Ideal) x1 := by
  after_results
  rw [h6]
  rfl

theorem second_zero : after hostOps3 W (Proc.devRef .tc main_cst_12) = val_main_cst_17 (F := Ideal) := by
  after_results <;> rfl

theorem second_a_keep_main_v3 : after hostOps3 W (Proc.devRef .tc main_v3) = W (Proc.devRef .tc main_v3) := by
  after_results <;> rfl
theorem second_a_keep_main_v6 : after hostOps3 W (Proc.devRef .tc main_v6) = W (Proc.devRef .tc main_v6) := by
  after_results <;> rfl
theorem second_a_keep_main_v48 : after hostOps3 W (Proc.devRef .tc main_v48) = W (Proc.devRef .tc main_v48) := by
  after_results <;> rfl

/-! ## The factor of an isolated vertex is zero -/

theorem second_factor (x1 : (⟨Cert.ReferenceIdeal.S2x800000, .i32⟩ : BufTy).Contents (Elt Ideal))
    (hc : W (Proc.devRef .tc main_v54) = val_main_v78 (F := Ideal) x1)
    (hr : W (Proc.devRef .tc main_v55) = val_main_v79 (F := Ideal) x1)
    (hz : W (Proc.devRef .tc main_cst_12) = val_main_cst_17 (F := Ideal)) :
    after hostOps3_1 W (Proc.devRef .tc main_v56) = val_main_v80 (F := Ideal) x1 := by
  after_results
  have ec : W (Proc.devRef .tc main_v54) = (TRef.of (T := ⟨S50000, .i1⟩) main_v54).toBuf (val_main_v78 (F := Ideal) x1) :=
    hc.trans (eq_of_heq (TypedRefCast.toBuf_heq _ _)).symm
  have er : W (Proc.devRef .tc main_v55) = (TRef.of (T := ⟨S50000, .f32⟩) main_v55).toBuf (val_main_v79 (F := Ideal) x1) :=
    hr.trans (eq_of_heq (TypedRefCast.toBuf_heq _ _)).symm
  have ez : W (Proc.devRef .tc main_cst_12) = (TRef.of (T := ⟨S_, .f32⟩) main_cst_12).toBuf (val_main_cst_17 (F := Ideal)) :=
    hz.trans (eq_of_heq (TypedRefCast.toBuf_heq _ _)).symm
  rw [ec, er, ez]
  simp only [TypedRefCast.ofBuf_toBuf]
  exact eq_of_heq ((TypedRefCast.toBuf_heq _ _).trans (heq_of_eq rfl))

theorem second_b_keep_main_v3 : after hostOps3_1 W (Proc.devRef .tc main_v3) = W (Proc.devRef .tc main_v3) := by
  after_results <;> rfl
theorem second_b_keep_main_v6 : after hostOps3_1 W (Proc.devRef .tc main_v6) = W (Proc.devRef .tc main_v6) := by
  after_results <;> rfl
theorem second_b_keep_main_v48 : after hostOps3_1 W (Proc.devRef .tc main_v48) = W (Proc.devRef .tc main_v48) := by
  after_results <;> rfl

/-! ## Gather, scale, sum per target -/

theorem second_sum (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S512x256, .f32⟩ : BufTy).Contents (Elt Ideal)) (x3 : (⟨Cert.ReferenceIdeal.S256, .f32⟩ : BufTy).Contents (Elt Ideal)) (x4 : (⟨Cert.ReferenceIdeal.S256, .f32⟩ : BufTy).Contents (Elt Ideal)) (x5 : (⟨Cert.ReferenceIdeal.S256, .f32⟩ : BufTy).Contents (Elt Ideal)) (x6 : (⟨Cert.ReferenceIdeal.S256x128, .f32⟩ : BufTy).Contents (Elt Ideal))
    (hp : W (Proc.devRef .tc main_v48) = val_main_v72 (F := Ideal) x0 x1 x2 x3 x4 x5 x6)
    (hf : W (Proc.devRef .tc main_v56) = val_main_v80 (F := Ideal) x1)
    (h3 : W (Proc.devRef .tc main_v3) = val_main_v3 (F := Ideal) x1)
    (h6 : W (Proc.devRef .tc main_v6) = val_main_v6 (F := Ideal) x1) :
    after hostOps3_2 W (Proc.devRef .tc main_v84) = val_main_v108 (F := Ideal) x0 x1 x2 x3 x4 x5 x6 := by
  after_results
  rw [hp, hf, h3, h6]
  rfl

/-- The three stretches together. -/
theorem second_agg (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S512x256, .f32⟩ : BufTy).Contents (Elt Ideal)) (x3 : (⟨Cert.ReferenceIdeal.S256, .f32⟩ : BufTy).Contents (Elt Ideal)) (x4 : (⟨Cert.ReferenceIdeal.S256, .f32⟩ : BufTy).Contents (Elt Ideal)) (x5 : (⟨Cert.ReferenceIdeal.S256, .f32⟩ : BufTy).Contents (Elt Ideal)) (x6 : (⟨Cert.ReferenceIdeal.S256x128, .f32⟩ : BufTy).Contents (Elt Ideal))
    (hp : W (Proc.devRef .tc main_v48) = val_main_v72 (F := Ideal) x0 x1 x2 x3 x4 x5 x6)
    (h3 : W (Proc.devRef .tc main_v3) = val_main_v3 (F := Ideal) x1)
    (h6 : W (Proc.devRef .tc main_v6) = val_main_v6 (F := Ideal) x1) :
    after hostOps3_2 (after hostOps3_1 (after hostOps3 W)) (Proc.devRef .tc main_v84) = val_main_v108 (F := Ideal) x0 x1 x2 x3 x4 x5 x6 :=
  second_sum (after hostOps3_1 (after hostOps3 W)) x0 x1 x2 x3 x4 x5 x6
    ((second_b_keep_main_v48 (after hostOps3 W)).trans ((second_a_keep_main_v48 W).trans hp))
    (second_factor (after hostOps3 W) x1 (second_cmp W x1 h6) (second_rsqrt W x1 h6) (second_zero W))
    ((second_b_keep_main_v3 (after hostOps3 W)).trans ((second_a_keep_main_v3 W).trans h3))
    ((second_b_keep_main_v6 (after hostOps3 W)).trans ((second_a_keep_main_v6 W).trans h6))

end Cert.KernelIdeal.Hand.Fold

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.Region0.lean ====
/-
  Pallas region 0: a matrix product tiled over the rows.  Each of the 25 grid points loads rows `2000 t … 2000 t + 1999` of the
  left operand and the whole right operand, multiplies them into a zero accumulator, and writes the product back as rows
  `2000 t … 2000 t + 1999` of the result.  A row of the product depends only on the same row of the left operand, so the blocks
  written back are the blocks of ONE matrix, `rowProd x w`, whose entry `(i, j)` is the sum over `k` of `x (i, k) · w (k, j)`
  (a change of float format is the identity over the extended reals); the 25 blocks cover the result, which therefore ends
  holding that matrix, whatever the region's entry contents `V` are.
-/
import proofs.«155982_j13099650253144_1_alg».proof.Proof.Gen.KernelIdeal.Frame
import proofs.«155982_j13099650253144_1_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R0

open Cert.KernelIdeal Cert.KernelIdeal.Gen

/-- The product of a `50000 × 512` matrix with a `512 × 256` matrix, entry by entry. -/
def rowProd (x : S50000x512.Idx → EReal) (w : S512x256.Idx → EReal) : S50000x256.Idx → EReal :=
  fun i => ∑ k : Fin 512, x (ix2 (⟨(i 0).val, (i 0).isLt⟩ : Fin 50000) k) * w (ix2 k (⟨(i 1).val, (i 1).isLt⟩ : Fin 256))

theorem hz : (![0, 0] : Fin 2 → Nat) = fun _ => 0 := funext fun a => by fin_cases a <;> rfl

/-- The body's product of a block of rows with the right operand, at `(p, q)`. -/
theorem pay_apply (x0 : Vec Ideal S2000x512 .f32) (x1 : Vec Ideal S512x256 .f32) (p : Fin 2000) (q : Fin 256) :
    k0_pay1 x0 x1 (ix2 p q) = ∑ k : Fin 512, x0 (ix2 p k) * x1 (ix2 k q) := by
  unfold k0_pay1
  show matmul dot_S2000x512_S512x256_S2000x256_1_0_0_1_n_n none _ _ (constant S2000x256 .f32 0x00000000#32) (ix2 p q) = _
  rw [show dot_S2000x512_S512x256_S2000x256_1_0_0_1_n_n = DotDims.plain 2000 512 256 from rfl]
  exact PlainDot.matmul_zero_apply none _ _ p q

/-- The printed index maps, decided over the grid: the left operand's and the result's blocks are the row blocks `t`, the right
    operand's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the product of the region's two operand arrays. -/
theorem flushed_eq (c : Dev nD) (t : Fin cfg0.N) :
    (dat0 V c).flushed 2 t = ((cfg0.win 2).blk t).view.read (Elt Ideal) (rowProd (V c main_arg0) (V c main_arg2)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e00, e01, e10, e11, e20, e21⟩ := idx_facts t
  funext j
  have hp : (j 0).val < 2000 := Nat.lt_of_lt_of_le (j 0).isLt ((cfg0.win 2).xsize_le (grid0.coords t) 0)
  have hq : (j 1).val < 256 := Nat.lt_of_lt_of_le (j 1).isLt ((cfg0.win 2).xsize_le (grid0.coords t) 1)
  have hx : (cfg0.win 2).xinj (grid0.coords t) j = ix2 (⟨(j 0).val, hp⟩ : Fin 2000) (⟨(j 1).val, hq⟩ : Fin 256) :=
    funext fun a => by
      match a with
      | ⟨0, _⟩ => rfl
      | ⟨1, _⟩ => rfl
  show k0_pay1 (iblk0 V c 0 t) (iblk0 V c 1 t) ((cfg0.win 2).xinj (grid0.coords t) j)
      = rowProd (V c main_arg0) (V c main_arg2) (((cfg0.win 2).blk t).view.emb j)
  rw [hx]
  refine (pay_apply (iblk0 V c 0 t) (iblk0 V c 1 t) ⟨(j 0).val, hp⟩ ⟨(j 1).val, hq⟩).trans ?_
  unfold rowProd
  refine Finset.sum_congr rfl fun k _ => ?_
  have h0 : iblk0 V c 0 t (ix2 (⟨(j 0).val, hp⟩ : Fin 2000) k)
      = V c main_arg0 (ix2 (⟨((((cfg0.win 2).blk t).view.emb j) 0).val, ((((cfg0.win 2).blk t).view.emb j) 0).isLt⟩ : Fin 50000) k) := by
    show V c main_arg0 (((cfg0.win 0).blk t).view.emb (ix2 (⟨(j 0).val, hp⟩ : Fin 2000) k)) = _
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 512 + 1 * k.val = k.val
      omega
  have h1 : iblk0 V c 1 t (ix2 k (⟨(j 1).val, hq⟩ : Fin 256))
      = V c main_arg2 (ix2 k (⟨((((cfg0.win 2).blk t).view.emb j) 1).val, ((((cfg0.win 2).blk t).view.emb j) 1).isLt⟩ : Fin 256)) := by
    show V c main_arg2 (((cfg0.win 1).blk t).view.emb (ix2 k (⟨(j 1).val, hq⟩ : Fin 256))) = _
    refine congrArg (V c main_arg2) (funext fun a => Fin.ext ?_)
    match a with
    | ⟨0, _⟩ =>
      show win0_1.index t (0 : Fin 2) * 512 + 1 * k.val = k.val
      omega
    | ⟨1, _⟩ =>
      show win0_1.index t (1 : Fin 2) * 256 + 1 * (j 1).val = win0_2.index t (1 : Fin 2) * 256 + 1 * (j 1).val
      omega
  rw [h0, h1]

/-- An index of the result is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v7).slice (win0_2.rect t)).set ↔ _
  rw [View.set_slice_whole, Rect.mem_set_unit]
  exact Iff.rfl

/-- Every entry of the result lies in the block of the point `row / 2000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨e00, e01, e10, e11, e20, e21⟩ := idx_facts t
  have ht : t.val = (i 0).val / 2000 := rfl
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- The result array after the region: the product of the two operand arrays as the region found them. -/
theorem final (c : Dev nD) : (dat0 V c).arrAt 2 cfg0.N = rowProd (V c main_arg0) (V c main_arg2) :=
  (dat0 V c).arrAt_eq_of_cover 2 (rowProd (V c main_arg0) (V c main_arg2)) (fun t _ => flushed_eq V c t) cover

end Cert.KernelIdeal.Hand.R0

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.LibBroadcastInDim.lean ====
/-
  The host's `broadcast_in_dim` read at an index given by coordinates, in the shapes a row-wise or column-wise scale
  or bias takes: a vector of length `a` placed as an `[a, 1]` column (`dims = [0]`) or of length `b` as a `[1, b]`
  row (`dims = [1]`); an `[a, 1]` column repeated across `b` columns and a `[1, b]` row repeated down `a` rows
  (`dims = [0, 1]`); and a scalar spread over any shape (`dims = []`). Each reads the operand at the coordinates the
  result's index has on the axes `dims` names, and at `0` on the operand's unit axes. For every extent.
-/
import Idealize.ShloMosaic.Lib.Pipeline.Value
import Idealize.ShloMosaic.Lib.ValueIdx

namespace Idealize.ShloMosaic.BroadcastInDimAt

open Idealize.ShloMosaic Idealize.ShloMosaic.ValueIdx

variable {α : Type}

/-- A vector as a column: entry `(p, u)` is the vector's entry `p`. -/
theorem vec_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) :=
  broadcastInDim_apply _ h v (ix2 p u) (ix1 p) fun ax => by
    match ax with
    | ⟨0, _⟩ =>
      show p.val = if a = 1 then 0 else p.val
      split
      · have := p.isLt; omega
      · rfl

/-- A vector as a row: entry `(u, q)` is the vector's entry `q`. -/
theorem vec_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) :=
  broadcastInDim_apply _ h v (ix2 u q) (ix1 q) fun ax => by
    match ax with
    | ⟨0, _⟩ =>
      show q.val = if b = 1 then 0 else q.val
      split
      · have := q.isLt; omega
      · rfl

/-- A column repeated across the columns: entry `(p, q)` is the column's entry of row `p`. -/
theorem col_mat_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) :=
  broadcastInDim_apply _ h v (ix2 p q) (ix2 p (0 : Fin 1)) fun ax => by
    match ax with
    | ⟨0, _⟩ =>
      show p.val = if a = 1 then 0 else p.val
      split
      · have := p.isLt; omega
      · rfl
    | ⟨1, _⟩ => rfl

/-- A row repeated down the rows: entry `(p, q)` is the row's entry of column `q`. -/
theorem row_mat_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) :=
  broadcastInDim_apply _ h v (ix2 p q) (ix2 (0 : Fin 1) q) fun ax => by
    match ax with
    | ⟨0, _⟩ => rfl
    | ⟨1, _⟩ =>
      show q.val = if b = 1 then 0 else q.val
      split
      · have := q.isLt; omega
      · rfl

/-- A scalar spread over a shape: every entry is the scalar. -/
theorem scalar_apply {t : Shape} (v : (⟨0, ![]⟩ : Shape).Idx → α)
    (h : (⟨0, ![]⟩ : Shape).BroadcastsInDim t (![] : Fin 0 → Fin t.rank)) (i : t.Idx) :
    broadcastInDim t (![] : Fin 0 → Fin t.rank) h v i = v ix0 :=
  broadcastInDim_apply _ h v i ix0 fun ax => ax.elim0

end Idealize.ShloMosaic.BroadcastInDimAt
-- ==== Proof.LibRowNorm.lean ====
/-
  Layer normalisation of the rows of a matrix, over the extended reals, in three spellings.

  `lnRow dW eps row bias w b q`: entry `q` of one normalised row.  With `y k = row k + bias k`, `μ = (Σ y) / dW`,
  `c k = y k - μ` and `σ² = (Σ c·c) / dW`, the entry is `c q · rsqrt (σ² + eps) · w q + b q`.

  `lnBlock`: the same computation as a kernel body writes it on an `[R, D]` block — lane sums laid out as `[R, 1]` columns and
  broadcast back across the lanes, the three parameter rows held as `[1, D]` blocks.  `lnHost`: as a host program writes it
  on the whole matrix — `reduce` over axis 1 from an initial zero, `broadcast_in_dim`, the parameters as vectors.
  Both, read at the entry `(p, q)`, are `lnRow` of row `p` (`lnBlock_apply`, `lnHost_apply`): a sum over a row does not
  depend on how the row is laid out, and the host's initial value is `0`.
-/
import Idealize.ShloMosaic.PureOps.Ideal.Laws
import Idealize.ShloMosaic.Lib.ValueIdx
import Idealize.ShloMosaic.Lib.ValueLayout
import proofs.«155982_j13099650253144_1_alg».proof.Proof.LibColumn
import proofs.«155982_j13099650253144_1_alg».proof.Proof.LibBroadcastInDim

noncomputable section

namespace RowNorm

open Idealize.ShloMosaic Idealize.ShloMosaic.ValueIdx

/-- The mean of a row: its sum divided by `dW`. -/
def mean {D : ℕ} (dW : EReal) (r : Fin D → EReal) : EReal := Ideal.div (∑ k, r k) dW

/-- Entry `q` of the layer-normalised row `row + bias`, scaled by `w` and shifted by `b`. -/
def lnRow {D : ℕ} (dW eps : EReal) (row bias w b : Fin D → EReal) (q : Fin D) : EReal :=
  ((row q + bias q) - mean dW (fun k => row k + bias k))
    * Ideal.rsqrt (mean dW (fun k => ((row k + bias k) - mean dW (fun k => row k + bias k))
        * ((row k + bias k) - mean dW (fun k => row k + bias k))) + eps)
    * w q + b q

/-- Equal rows, parameters and positions give equal entries. -/
theorem lnRow_congr {D : ℕ} {dW eps : EReal} {r r' b1 b1' b2 b2' b3 b3' : Fin D → EReal} {q q' : Fin D}
    (hr : r = r') (h1 : b1 = b1') (h2 : b2 = b2') (h3 : b3 = b3') (hq : q = q') :
    lnRow dW eps r b1 b2 b3 q = lnRow dW eps r' b1' b2' b3' q' := by
  subst hr h1 h2 h3 hq; rfl

variable {R D : ℕ}

/-! ## The kernel's spelling, on a block -/

section Block

variable (hcc : (⟨2, ![R, D]⟩ : Shape).ShapeCasts ⟨2, ![R, D]⟩) (hc1 : (⟨2, ![1, D]⟩ : Shape).ShapeCasts ⟨2, ![1, D]⟩)
  (hb : (⟨2, ![1, D]⟩ : Shape).Broadcasts ⟨2, ![R, D]⟩) (hr : (⟨2, ![R, D]⟩ : Shape).Reduces [1] ⟨1, ![R]⟩)
  (hφ : FKind.Formats .f32) (hacc : (0x00000000#32 : BitVec 32) = FKind.add.neutral .f32 hφ)
  (hcol : (⟨1, ![R]⟩ : Shape).ShapeCasts ⟨2, ![R, 1]⟩) (hbc : (⟨2, ![R, 1]⟩ : Shape).Broadcasts ⟨2, ![R, D]⟩)
  (dW eps : Ideal .f32)

/-- The block plus the bias row. -/
def biased (x0 : FVec Ideal ⟨2, ![R, D]⟩ .f32) (x1 : FVec Ideal ⟨2, ![1, D]⟩ .f32) : FVec Ideal ⟨2, ![R, D]⟩ .f32 :=
  addf (shapeCast ⟨2, ![R, D]⟩ x0 hcc) (broadcastTo ⟨2, ![R, D]⟩ (shapeCast ⟨2, ![1, D]⟩ x1 hc1) hb)

/-- The lane sums of a block as a column, divided by `dW`: the row means. -/
def colMean (v : FVec Ideal ⟨2, ![R, D]⟩ .f32) : FVec Ideal ⟨2, ![R, 1]⟩ .f32 :=
  divf (shapeCast ⟨2, ![R, 1]⟩ (multiReduction .add [1] ⟨1, ![R]⟩ v 0x00000000#32 hr hφ hacc) hcol) (broadcast ⟨2, ![R, 1]⟩ dW)

/-- A block less a column broadcast across its lanes. -/
def centered (mcol : FVec Ideal ⟨2, ![R, 1]⟩ .f32) (y : FVec Ideal ⟨2, ![R, D]⟩ .f32) : FVec Ideal ⟨2, ![R, D]⟩ .f32 :=
  subf y (broadcastTo ⟨2, ![R, D]⟩ mcol hbc)

/-- The bias-add and layer norm of a block, as the kernel body computes it. -/
def lnBlock (x0 : FVec Ideal ⟨2, ![R, D]⟩ .f32) (x1 x2 x3 : FVec Ideal ⟨2, ![1, D]⟩ .f32) : FVec Ideal ⟨2, ![R, D]⟩ .f32 :=
  addf (mulf (mulf (centered hbc (colMean hr hφ hacc hcol dW (biased hcc hc1 hb x0 x1)) (biased hcc hc1 hb x0 x1))
      (broadcastTo ⟨2, ![R, D]⟩ (rsqrt (addf (colMean hr hφ hacc hcol dW
        (mulf (centered hbc (colMean hr hφ hacc hcol dW (biased hcc hc1 hb x0 x1)) (biased hcc hc1 hb x0 x1))
          (centered hbc (colMean hr hφ hacc hcol dW (biased hcc hc1 hb x0 x1)) (biased hcc hc1 hb x0 x1))))
        (broadcast ⟨2, ![R, 1]⟩ eps))) hbc))
      (broadcastTo ⟨2, ![R, D]⟩ (shapeCast ⟨2, ![1, D]⟩ x2 hc1) hb))
    (broadcastTo ⟨2, ![R, D]⟩ (shapeCast ⟨2, ![1, D]⟩ x3 hc1) hb)

theorem biased_apply (x0 : FVec Ideal ⟨2, ![R, D]⟩ .f32) (x1 : FVec Ideal ⟨2, ![1, D]⟩ .f32) (p : Fin R) (k : Fin D) :
    biased hcc hc1 hb x0 x1 (ix2 p k) = x0 (ix2 p k) + x1 (ix2 (0 : Fin 1) k) := by
  show shapeCast ⟨2, ![R, D]⟩ x0 hcc (ix2 p k) + broadcastTo ⟨2, ![R, D]⟩ (shapeCast ⟨2, ![1, D]⟩ x1 hc1) hb (ix2 p k) = _
  rw [shapeCast_self, shapeCast_self, broadcastTo_1b_ab_apply]

theorem rowParam_apply (x : FVec Ideal ⟨2, ![1, D]⟩ .f32) (p : Fin R) (k : Fin D) :
    broadcastTo ⟨2, ![R, D]⟩ (shapeCast ⟨2, ![1, D]⟩ x hc1) hb (ix2 p k) = x (ix2 (0 : Fin 1) k) := by
  rw [shapeCast_self, broadcastTo_1b_ab_apply]

theorem colMean_apply (v : FVec Ideal ⟨2, ![R, D]⟩ .f32) (p : Fin R) (u : Fin 1) :
    colMean hr hφ hacc hcol dW v (ix2 p u) = mean dW (fun k => v (ix2 p k)) := by
  show Ideal.div (shapeCast ⟨2, ![R, 1]⟩ (multiReduction .add [1] ⟨1, ![R]⟩ v 0x00000000#32 hr hφ hacc) hcol (ix2 p u)) dW = _
  refine congrArg (fun s => Ideal.div s dW) ?_
  refine (ColumnLayout.shapeCast_a_a1_apply _ hcol p u).trans ?_
  refine (Ideal.multiReduction_add_single v _ hr hφ hacc (ix1 p)).trans ?_
  exact Finset.sum_congr rfl fun k _ => congrArg v (funext fun a => Fin.ext (by
    match a with
    | ⟨0, _⟩ => rfl
    | ⟨1, _⟩ => rfl))

theorem centered_apply (mcol : FVec Ideal ⟨2, ![R, 1]⟩ .f32) (y : FVec Ideal ⟨2, ![R, D]⟩ .f32) (p : Fin R) (k : Fin D) :
    centered hbc mcol y (ix2 p k) = y (ix2 p k) - mcol (ix2 p (0 : Fin 1)) := by
  show y (ix2 p k) - broadcastTo ⟨2, ![R, D]⟩ mcol hbc (ix2 p k) = _
  rw [ColumnLayout.broadcastTo_a1_ab_apply]

/-- The kernel's block computation at `(p, q)` is the normalised row `p` at `q`. -/
theorem lnBlock_apply (x0 : FVec Ideal ⟨2, ![R, D]⟩ .f32) (x1 x2 x3 : FVec Ideal ⟨2, ![1, D]⟩ .f32) (p : Fin R) (q : Fin D) :
    lnBlock hcc hc1 hb hr hφ hacc hcol hbc dW eps x0 x1 x2 x3 (ix2 p q)
      = lnRow dW eps (fun k => x0 (ix2 p k)) (fun k => x1 (ix2 (0 : Fin 1) k)) (fun k => x2 (ix2 (0 : Fin 1) k))
          (fun k => x3 (ix2 (0 : Fin 1) k)) q := by
  unfold lnBlock lnRow
  show (centered hbc _ _ (ix2 p q) * broadcastTo ⟨2, ![R, D]⟩ _ hbc (ix2 p q)) * broadcastTo ⟨2, ![R, D]⟩ _ hb (ix2 p q)
      + broadcastTo ⟨2, ![R, D]⟩ _ hb (ix2 p q) = _
  rw [rowParam_apply, rowParam_apply, ColumnLayout.broadcastTo_a1_ab_apply, centered_apply, colMean_apply, biased_apply]
  show _ * Ideal.rsqrt (colMean hr hφ hacc hcol dW _ (ix2 p (0 : Fin 1)) + eps) * _ + _ = _
  rw [colMean_apply]
  have hc : ∀ k : Fin D, centered hbc (colMean hr hφ hacc hcol dW (biased hcc hc1 hb x0 x1)) (biased hcc hc1 hb x0 x1) (ix2 p k)
      = (x0 (ix2 p k) + x1 (ix2 (0 : Fin 1) k)) - mean dW (fun k => x0 (ix2 p k) + x1 (ix2 (0 : Fin 1) k)) := fun k => by
    rw [centered_apply, colMean_apply, biased_apply]
    exact congrArg (fun f => _ - mean dW f) (funext fun k => biased_apply hcc hc1 hb x0 x1 p k)
  have hsq : (fun k : Fin D => (mulf (centered hbc (colMean hr hφ hacc hcol dW (biased hcc hc1 hb x0 x1)) (biased hcc hc1 hb x0 x1))
      (centered hbc (colMean hr hφ hacc hcol dW (biased hcc hc1 hb x0 x1)) (biased hcc hc1 hb x0 x1))) (ix2 p k))
      = fun k => ((x0 (ix2 p k) + x1 (ix2 (0 : Fin 1) k)) - mean dW (fun k => x0 (ix2 p k) + x1 (ix2 (0 : Fin 1) k)))
          * ((x0 (ix2 p k) + x1 (ix2 (0 : Fin 1) k)) - mean dW (fun k => x0 (ix2 p k) + x1 (ix2 (0 : Fin 1) k))) :=
    funext fun k => by
      show centered hbc _ _ (ix2 p k) * centered hbc _ _ (ix2 p k) = _
      rw [hc k]
  rw [hsq]
  have hm : (fun k : Fin D => biased hcc hc1 hb x0 x1 (ix2 p k)) = fun k => x0 (ix2 p k) + x1 (ix2 (0 : Fin 1) k) :=
    funext fun k => biased_apply hcc hc1 hb x0 x1 p k
  rw [hm]

end Block

/-! ## The host's spelling, on the whole matrix -/

section Host

variable (hv : (⟨1, ![D]⟩ : Shape).BroadcastsInDim ⟨2, ![1, D]⟩ (![1] : Fin 1 → Fin 2))
  (hrow : (⟨2, ![1, D]⟩ : Shape).BroadcastsInDim ⟨2, ![R, D]⟩ (![0, 1] : Fin 2 → Fin 2))
  (hr' : (⟨2, ![R, D]⟩ : Shape).ReducesTo [1] ⟨1, ![R]⟩)
  (h0 : 0 < (⟨0, ![]⟩ : Shape).numel)
  (hcolv : (⟨1, ![R]⟩ : Shape).BroadcastsInDim ⟨2, ![R, 1]⟩ (![0] : Fin 1 → Fin 2))
  (hs1 : (⟨0, ![]⟩ : Shape).BroadcastsInDim ⟨2, ![R, 1]⟩ (![] : Fin 0 → Fin 2))
  (hcm : (⟨2, ![R, 1]⟩ : Shape).BroadcastsInDim ⟨2, ![R, D]⟩ (![0, 1] : Fin 2 → Fin 2))
  (dW eps : BitVec 32)

/-- A parameter vector repeated down the rows. -/
def hostParam (x : FVec Ideal ⟨1, ![D]⟩ .f32) : FVec Ideal ⟨2, ![R, D]⟩ .f32 :=
  broadcastInDim ⟨2, ![R, D]⟩ ![0, 1] hrow (broadcastInDim ⟨2, ![1, D]⟩ ![1] hv x)

/-- The row sums from an initial zero, as a column, divided by the constant `dW`. -/
def hostMean (v : FVec Ideal ⟨2, ![R, D]⟩ .f32) : FVec Ideal ⟨2, ![R, 1]⟩ .f32 :=
  Host.divf (broadcastInDim ⟨2, ![R, 1]⟩ ![0] hcolv (Host.reduceAdd v (constant (F := Ideal) ⟨0, ![]⟩ .f32 0x00000000#32) hr' h0))
    (broadcastInDim ⟨2, ![R, 1]⟩ ![] hs1 (constant (F := Ideal) ⟨0, ![]⟩ .f32 dW))

/-- A matrix less a column repeated across its columns. -/
def hostCentered (mcol : FVec Ideal ⟨2, ![R, 1]⟩ .f32) (y : FVec Ideal ⟨2, ![R, D]⟩ .f32) : FVec Ideal ⟨2, ![R, D]⟩ .f32 :=
  subf y (broadcastInDim ⟨2, ![R, D]⟩ ![0, 1] hcm mcol)

/-- The bias-add and layer norm of a matrix, as the host program computes it. -/
def lnHost (a : FVec Ideal ⟨2, ![R, D]⟩ .f32) (x3 x4 x5 : FVec Ideal ⟨1, ![D]⟩ .f32) : FVec Ideal ⟨2, ![R, D]⟩ .f32 :=
  addf (mulf (mulf (hostCentered hcm (hostMean hr' h0 hcolv hs1 dW (addf a (hostParam hv hrow x3))) (addf a (hostParam hv hrow x3)))
      (broadcastInDim ⟨2, ![R, D]⟩ ![0, 1] hcm (Host.rsqrt (addf (hostMean hr' h0 hcolv hs1 dW
        (mulf (hostCentered hcm (hostMean hr' h0 hcolv hs1 dW (addf a (hostParam hv hrow x3))) (addf a (hostParam hv hrow x3)))
          (hostCentered hcm (hostMean hr' h0 hcolv hs1 dW (addf a (hostParam hv hrow x3))) (addf a (hostParam hv hrow x3)))))
        (broadcastInDim ⟨2, ![R, 1]⟩ ![] hs1 (constant (F := Ideal) ⟨0, ![]⟩ .f32 eps))))))
      (hostParam hv hrow x4))
    (hostParam hv hrow x5)

theorem hostParam_apply (x : FVec Ideal ⟨1, ![D]⟩ .f32) (p : Fin R) (k : Fin D) :
    hostParam hv hrow x (ix2 p k) = x (ix1 k) := by
  unfold hostParam
  rw [BroadcastInDimAt.row_mat_apply, BroadcastInDimAt.vec_row_apply]

theorem hostMean_apply (hr : (⟨2, ![R, D]⟩ : Shape).Reduces [1] ⟨1, ![R]⟩) (v : FVec Ideal ⟨2, ![R, D]⟩ .f32) (p : Fin R) (u : Fin 1) :
    hostMean hr' h0 hcolv hs1 dW v (ix2 p u) = mean (Ideal.ofBits .f32 dW) (fun k => v (ix2 p k)) := by
  unfold hostMean
  show Ideal.div (broadcastInDim (s := (⟨1, ![R]⟩ : Shape)) ⟨2, ![R, 1]⟩ ![0] hcolv _ (ix2 p u)) (broadcastInDim (s := (⟨0, ![]⟩ : Shape)) ⟨2, ![R, 1]⟩ ![] hs1 _ (ix2 p u)) = _
  rw [BroadcastInDimAt.vec_col_apply, BroadcastInDimAt.scalar_apply]
  show Ideal.div (Ideal.hostReduceAdd hr' v _ (ix1 p)) (Ideal.ofBits .f32 dW) = _
  refine congrArg (fun s => Ideal.div s (Ideal.ofBits .f32 dW)) ?_
  refine (Ideal.hostReduceAdd_single hr' hr v _ (ix1 p)).trans ?_
  show Ideal.ofBits .f32 0x00000000#32 + _ = _
  rw [Ideal.ofBits_zero_f32, zero_add]
  exact Finset.sum_congr rfl fun k _ => congrArg v (funext fun a => Fin.ext (by
    match a with
    | ⟨0, _⟩ => rfl
    | ⟨1, _⟩ => rfl))

theorem hostCentered_apply (mcol : FVec Ideal ⟨2, ![R, 1]⟩ .f32) (y : FVec Ideal ⟨2, ![R, D]⟩ .f32) (p : Fin R) (k : Fin D) :
    hostCentered hcm mcol y (ix2 p k) = y (ix2 p k) - mcol (ix2 p (0 : Fin 1)) := by
  show y (ix2 p k) - broadcastInDim (s := (⟨2, ![R, 1]⟩ : Shape)) ⟨2, ![R, D]⟩ ![0, 1] hcm mcol (ix2 p k) = _
  rw [BroadcastInDimAt.col_mat_apply]

/-- The host's computation at `(p, q)` is the normalised row `p` at `q`. -/
theorem lnHost_apply (hr : (⟨2, ![R, D]⟩ : Shape).Reduces [1] ⟨1, ![R]⟩) (a : FVec Ideal ⟨2, ![R, D]⟩ .f32) (x3 x4 x5 : FVec Ideal ⟨1, ![D]⟩ .f32) (p : Fin R) (q : Fin D) :
    lnHost hv hrow hr' h0 hcolv hs1 hcm dW eps a x3 x4 x5 (ix2 p q)
      = lnRow (Ideal.ofBits .f32 dW) (Ideal.ofBits .f32 eps) (fun k => a (ix2 p k)) (fun k => x3 (ix1 k)) (fun k => x4 (ix1 k))
          (fun k => x5 (ix1 k)) q := by
  have hy : ∀ k : Fin D, (addf a (hostParam hv hrow x3)) (ix2 p k) = a (ix2 p k) + x3 (ix1 k) := fun k => by
    show a (ix2 p k) + hostParam hv hrow x3 (ix2 p k) = _
    rw [hostParam_apply]
  have hyf : (fun k : Fin D => (addf a (hostParam hv hrow x3)) (ix2 p k)) = fun k => a (ix2 p k) + x3 (ix1 k) := funext hy
  have hc : ∀ k : Fin D, hostCentered hcm (hostMean hr' h0 hcolv hs1 dW (addf a (hostParam hv hrow x3))) (addf a (hostParam hv hrow x3)) (ix2 p k)
      = (a (ix2 p k) + x3 (ix1 k)) - mean (Ideal.ofBits .f32 dW) (fun k => a (ix2 p k) + x3 (ix1 k)) := fun k => by
    rw [hostCentered_apply, hostMean_apply hr' h0 hcolv hs1 dW hr, hy, hyf]
  have hsq : (fun k : Fin D => (mulf (hostCentered hcm (hostMean hr' h0 hcolv hs1 dW (addf a (hostParam hv hrow x3))) (addf a (hostParam hv hrow x3)))
      (hostCentered hcm (hostMean hr' h0 hcolv hs1 dW (addf a (hostParam hv hrow x3))) (addf a (hostParam hv hrow x3)))) (ix2 p k))
      = fun k => ((a (ix2 p k) + x3 (ix1 k)) - mean (Ideal.ofBits .f32 dW) (fun k => a (ix2 p k) + x3 (ix1 k)))
          * ((a (ix2 p k) + x3 (ix1 k)) - mean (Ideal.ofBits .f32 dW) (fun k => a (ix2 p k) + x3 (ix1 k))) :=
    funext fun k => by
      show hostCentered hcm _ _ (ix2 p k) * hostCentered hcm _ _ (ix2 p k) = _
      rw [hc k]
  unfold lnHost lnRow
  show (hostCentered hcm _ _ (ix2 p q) * broadcastInDim (s := (⟨2, ![R, 1]⟩ : Shape)) ⟨2, ![R, D]⟩ ![0, 1] hcm _ (ix2 p q)) * hostParam hv hrow x4 (ix2 p q)
      + hostParam hv hrow x5 (ix2 p q) = _
  rw [hostParam_apply, hostParam_apply, BroadcastInDimAt.col_mat_apply, hc q]
  show _ * Ideal.rsqrt (hostMean hr' h0 hcolv hs1 dW _ (ix2 p (0 : Fin 1)) + broadcastInDim (s := (⟨0, ![]⟩ : Shape)) ⟨2, ![R, 1]⟩ ![] hs1 _ (ix2 p (0 : Fin 1))) * _ + _ = _
  rw [hostMean_apply hr' h0 hcolv hs1 dW hr, BroadcastInDimAt.scalar_apply, hsq]
  rfl

end Host

end RowNorm

end
-- ==== Proof.Region1.lean ====
/-
  Pallas region 1: bias-add and layer normalisation followed by a maximum with zero, tiled over the rows.  Each of the 25 grid points loads rows
  `2000 t … 2000 t + 1999` of the aggregated matrix and the three parameter rows (bias, scale, shift, each held as a `[1, 256]`
  array), normalises every row of the block over its 256 lanes, and writes the block back.  A normalised row depends only on
  the same row of the operand, so the blocks written back are the blocks of ONE matrix, `rowsLN`, whose row `i` is
  `RowNorm.lnRow` of row `i`; the 25 blocks cover the result, which therefore ends holding that matrix, whatever the
  region's entry contents `V` are.
-/
import proofs.«155982_j13099650253144_1_alg».proof.Proof.Gen.KernelIdeal.Frame
import proofs.«155982_j13099650253144_1_alg».proof.Proof.LibRowNorm
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R1

open Cert.KernelIdeal Cert.KernelIdeal.Gen

/-- The divisor 256 and the ε of the normalisation, as the extended reals the kernel's literals denote. -/
abbrev dW : EReal := (Scalar.ofBits (F := Ideal) .f32 0x43800000#32 : Ideal .f32)
abbrev eps : EReal := (Scalar.ofBits (F := Ideal) .f32 0x3727C5AC#32 : Ideal .f32)

/-- The matrix whose every row is the layer-normalised row of `a` plus the bias row, cut below at zero. -/
def rowsLN (a : S50000x256.Idx → EReal) (b1 b2 b3 : S1x256.Idx → EReal) : S50000x256.Idx → EReal :=
  fun i => max (RowNorm.lnRow dW eps (fun k : Fin 256 => a (ix2 (⟨(i 0).val, (i 0).isLt⟩ : Fin 50000) k))
    (fun k => b1 (ix2 (0 : Fin 1) k)) (fun k => b2 (ix2 (0 : Fin 1) k)) (fun k => b3 (ix2 (0 : Fin 1) k))
    (⟨(i 1).val, (i 1).isLt⟩ : Fin 256)) (Ideal.ofBits .f32 0x00000000#32)

theorem hz : (![0, 0] : Fin 2 → Nat) = fun _ => 0 := funext fun a => by fin_cases a <;> rfl

/-- The body's payload is the block computation of `RowNorm` under a maximum with the zero splat. -/
theorem pay_eq (x0 : Vec Ideal S2000x256 .f32) (x1 x2 x3 : Vec Ideal S1x256 .f32) :
    k1_pay1 x0 x1 x2 x3 = maximumf (RowNorm.lnBlock shapeCasts_S2000x256_S2000x256 shapeCasts_S1x256_S1x256 broadcasts_S1x256_S2000x256 reduces_S2000x256_S2000 (.inl rfl) rfl
      shapeCasts_S2000_S2000x1 broadcasts_S2000x1_S2000x256 (Scalar.ofBits .f32 0x43800000#32) (Scalar.ofBits .f32 0x3727C5AC#32) x0 x1 x2 x3)
      (broadcast S2000x256 (Scalar.ofBits .f32 0x00000000#32)) := rfl

/-- The payload at `(p, q)`: the normalised row `p` of the block at `q`. -/
theorem pay_apply (x0 : Vec Ideal S2000x256 .f32) (x1 x2 x3 : Vec Ideal S1x256 .f32) (p : Fin 2000) (q : Fin 256) :
    k1_pay1 x0 x1 x2 x3 (ix2 p q) = max (RowNorm.lnRow dW eps (fun k : Fin 256 => x0 (ix2 p k))
      (fun k => x1 (ix2 (0 : Fin 1) k)) (fun k => x2 (ix2 (0 : Fin 1) k)) (fun k => x3 (ix2 (0 : Fin 1) k)) q) (Ideal.ofBits .f32 0x00000000#32) := by
  rw [pay_eq]
  exact congrArg₂ max (RowNorm.lnBlock_apply _ _ _ _ _ _ _ _ _ _ x0 x1 x2 x3 p q) rfl

/-- The printed index maps, decided over the grid: the operand's and the result's blocks are the row blocks `t`, each
    parameter's block is its whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of `rowsLN` of the region's four operand arrays. -/
theorem flushed_eq (c : Dev nD) (t : Fin cfg1.N) :
    (dat1 V c).flushed 4 t = ((cfg1.win 4).blk t).view.read (Elt Ideal) (rowsLN (V c main_v43) (V c main_v44) (V c main_v45) (V c main_v46)) := by
  show (cfg1.win 4).cut (grid1.coords t) ((dat1 V c).after 4 t) = _
  rw [after1_4]
  unfold out1_4
  rw [View.canon_unit_zero hz]
  simp only [View.ld_unit_zero (S := S2000x256) hz, View.ld_unit_zero (S := S1x256) hz]
  obtain ⟨e00, e01, e10, e11, e20, e21, e30, e31, e40, e41⟩ := idx_facts t
  funext j
  have hp : (j 0).val < 2000 := Nat.lt_of_lt_of_le (j 0).isLt ((cfg1.win 4).xsize_le (grid1.coords t) 0)
  have hq : (j 1).val < 256 := Nat.lt_of_lt_of_le (j 1).isLt ((cfg1.win 4).xsize_le (grid1.coords t) 1)
  have hx : (cfg1.win 4).xinj (grid1.coords t) j = ix2 (⟨(j 0).val, hp⟩ : Fin 2000) (⟨(j 1).val, hq⟩ : Fin 256) :=
    funext fun a => by
      match a with
      | ⟨0, _⟩ => rfl
      | ⟨1, _⟩ => rfl
  show k1_pay1 (iblk1 V c 0 t) (iblk1 V c 1 t) (iblk1 V c 2 t) (iblk1 V c 3 t) ((cfg1.win 4).xinj (grid1.coords t) j)
      = rowsLN (V c main_v43) (V c main_v44) (V c main_v45) (V c main_v46) (((cfg1.win 4).blk t).view.emb j)
  rw [hx]
  refine (pay_apply (iblk1 V c 0 t) (iblk1 V c 1 t) (iblk1 V c 2 t) (iblk1 V c 3 t) ⟨(j 0).val, hp⟩ ⟨(j 1).val, hq⟩).trans ?_
  unfold rowsLN
  have h0 : (fun k : Fin 256 => iblk1 V c 0 t (ix2 (⟨(j 0).val, hp⟩ : Fin 2000) k))
      = fun k : Fin 256 => V c main_v43 (ix2 (⟨((((cfg1.win 4).blk t).view.emb j) 0).val, ((((cfg1.win 4).blk t).view.emb j) 0).isLt⟩ : Fin 50000) k) :=
    funext fun k => by
      show V c main_v43 (((cfg1.win 0).blk t).view.emb (ix2 (⟨(j 0).val, hp⟩ : Fin 2000) k)) = _
      refine congrArg (V c main_v43) (funext fun a => Fin.ext ?_)
      match a with
      | ⟨0, _⟩ =>
        show win1_0.index t (0 : Fin 2) * 2000 + 1 * (j 0).val = win1_4.index t (0 : Fin 2) * 2000 + 1 * (j 0).val
        omega
      | ⟨1, _⟩ =>
        show win1_0.index t (1 : Fin 2) * 256 + 1 * k.val = k.val
        omega
  have h1 : (fun k : Fin 256 => iblk1 V c 1 t (ix2 (0 : Fin 1) k)) = fun k : Fin 256 => V c main_v44 (ix2 (0 : Fin 1) k) :=
    funext fun k => by
      show V c main_v44 (((cfg1.win 1).blk t).view.emb (ix2 (0 : Fin 1) k)) = _
      refine congrArg (V c main_v44) (funext fun a => Fin.ext ?_)
      match a with
      | ⟨0, _⟩ =>
        show win1_1.index t (0 : Fin 2) * 1 + 1 * 0 = 0
        omega
      | ⟨1, _⟩ =>
        show win1_1.index t (1 : Fin 2) * 256 + 1 * k.val = k.val
        omega
  have h2 : (fun k : Fin 256 => iblk1 V c 2 t (ix2 (0 : Fin 1) k)) = fun k : Fin 256 => V c main_v45 (ix2 (0 : Fin 1) k) :=
    funext fun k => by
      show V c main_v45 (((cfg1.win 2).blk t).view.emb (ix2 (0 : Fin 1) k)) = _
      refine congrArg (V c main_v45) (funext fun a => Fin.ext ?_)
      match a with
      | ⟨0, _⟩ =>
        show win1_2.index t (0 : Fin 2) * 1 + 1 * 0 = 0
        omega
      | ⟨1, _⟩ =>
        show win1_2.index t (1 : Fin 2) * 256 + 1 * k.val = k.val
        omega
  have h3 : (fun k : Fin 256 => iblk1 V c 3 t (ix2 (0 : Fin 1) k)) = fun k : Fin 256 => V c main_v46 (ix2 (0 : Fin 1) k) :=
    funext fun k => by
      show V c main_v46 (((cfg1.win 3).blk t).view.emb (ix2 (0 : Fin 1) k)) = _
      refine congrArg (V c main_v46) (funext fun a => Fin.ext ?_)
      match a with
      | ⟨0, _⟩ =>
        show win1_3.index t (0 : Fin 2) * 1 + 1 * 0 = 0
        omega
      | ⟨1, _⟩ =>
        show win1_3.index t (1 : Fin 2) * 256 + 1 * k.val = k.val
        omega
  have hq' : (⟨(j 1).val, hq⟩ : Fin 256) = ⟨((((cfg1.win 4).blk t).view.emb j) 1).val, ((((cfg1.win 4).blk t).view.emb j) 1).isLt⟩ :=
    Fin.ext (by
      show (j 1).val = win1_4.index t (1 : Fin 2) * 256 + 1 * (j 1).val
      omega)
  exact congrArg (fun z => max z (Ideal.ofBits .f32 0x00000000#32)) (RowNorm.lnRow_congr h0 h1 h2 h3 hq')

/-- An index of the result is in point `t`'s block iff each coordinate is in the block's range on its axis. -/
theorem mem_blk (t : Fin cfg1.N) (i : S50000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v47).slice (win1_4.rect t)).set ↔ _
  rw [View.set_slice_whole, Rect.mem_set_unit]
  exact Iff.rfl

/-- Every entry of the result lies in the block of the point `row / 2000`. -/
theorem cover (i : S50000x256.Idx) : ∃ t : Fin cfg1.N, (cfg1.win 4).flush t = true ∧ i ∈ ((cfg1.win 4).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨e00, e01, e10, e11, e20, e21, e30, e31, e40, e41⟩ := idx_facts t
  have ht : t.val = (i 0).val / 2000 := rfl
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 256 ≤ (i 1).val ∧ (i 1).val < win1_4.index t (1 : Fin 2) * 256 + 256
    omega

/-- The result array after the region: `rowsLN` of the four operand arrays as the region found them. -/
theorem final (c : Dev nD) : (dat1 V c).arrAt 4 cfg1.N = rowsLN (V c main_v43) (V c main_v44) (V c main_v45) (V c main_v46) :=
  (dat1 V c).arrAt_eq_of_cover 4 (rowsLN (V c main_v43) (V c main_v44) (V c main_v45) (V c main_v46)) (fun t _ => flushed_eq V c t) cover

end Cert.KernelIdeal.Hand.R1

end
-- ==== Proof.Region2.lean ====
/-
  Pallas region 2: a matrix product tiled over the rows.  Each of the 25 grid points loads rows `2000 t … 2000 t + 1999` of the
  left operand and the whole right operand, multiplies them into a zero accumulator, and writes the product back as rows
  `2000 t … 2000 t + 1999` of the result.  A row of the product depends only on the same row of the left operand, so the blocks
  written back are the blocks of ONE matrix, `rowProd x w`, whose entry `(i, j)` is the sum over `k` of `x (i, k) · w (k, j)`
  (a change of float format, and a cast to the same shape, are the identity over the extended reals); the 25 blocks cover the result, which therefore ends
  holding that matrix, whatever the region's entry contents `V` are.
-/
import proofs.«155982_j13099650253144_1_alg».proof.Proof.Gen.KernelIdeal.Frame
import proofs.«155982_j13099650253144_1_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R2

open Cert.KernelIdeal Cert.KernelIdeal.Gen

/-- The product of a `50000 × 256` matrix with a `256 × 128` matrix, entry by entry. -/
def rowProd (x : S50000x256.Idx → EReal) (w : S256x128.Idx → EReal) : S50000x128.Idx → EReal :=
  fun i => ∑ k : Fin 256, x (ix2 (⟨(i 0).val, (i 0).isLt⟩ : Fin 50000) k) * w (ix2 k (⟨(i 1).val, (i 1).isLt⟩ : Fin 128))

theorem hz : (![0, 0] : Fin 2 → Nat) = fun _ => 0 := funext fun a => by fin_cases a <;> rfl

/-- The body's product of a block of rows with the right operand, at `(p, q)`. -/
theorem pay_apply (x0 : Vec Ideal S2000x256 .f32) (x1 : Vec Ideal S256x128 .f32) (p : Fin 2000) (q : Fin 128) :
    k2_pay1 x0 x1 (ix2 p q) = ∑ k : Fin 256, x0 (ix2 p k) * x1 (ix2 k q) := by
  unfold k2_pay1
  show matmul dot_S2000x256_S256x128_S2000x128_1_0_0_1_n_n none _ _ (constant S2000x128 .f32 0x00000000#32) (ix2 p q) = _
  rw [show dot_S2000x256_S256x128_S2000x128_1_0_0_1_n_n = DotDims.plain 2000 256 128 from rfl]
  refine (PlainDot.matmul_zero_apply none _ _ p q).trans ?_
  refine Finset.sum_congr rfl fun k _ => ?_
  show shapeCast S2000x256 x0 shapeCasts_S2000x256_S2000x256 (ix2 p k) * x1 (ix2 k q) = _
  rw [shapeCast_self]

/-- The printed index maps, decided over the grid: the left operand's and the result's blocks are the row blocks `t`, the right
    operand's block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of the product of the region's two operand arrays. -/
theorem flushed_eq (c : Dev nD) (t : Fin cfg2.N) :
    (dat2 V c).flushed 2 t = ((cfg2.win 2).blk t).view.read (Elt Ideal) (rowProd (V c main_v47) (V c main_arg6)) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x128) hz]
  obtain ⟨e00, e01, e10, e11, e20, e21⟩ := idx_facts t
  funext j
  have hp : (j 0).val < 2000 := Nat.lt_of_lt_of_le (j 0).isLt ((cfg2.win 2).xsize_le (grid2.coords t) 0)
  have hq : (j 1).val < 128 := Nat.lt_of_lt_of_le (j 1).isLt ((cfg2.win 2).xsize_le (grid2.coords t) 1)
  have hx : (cfg2.win 2).xinj (grid2.coords t) j = ix2 (⟨(j 0).val, hp⟩ : Fin 2000) (⟨(j 1).val, hq⟩ : Fin 128) :=
    funext fun a => by
      match a with
      | ⟨0, _⟩ => rfl
      | ⟨1, _⟩ => rfl
  show k2_pay1 (iblk2 V c 0 t) (iblk2 V c 1 t) ((cfg2.win 2).xinj (grid2.coords t) j)
      = rowProd (V c main_v47) (V c main_arg6) (((cfg2.win 2).blk t).view.emb j)
  rw [hx]
  refine (pay_apply (iblk2 V c 0 t) (iblk2 V c 1 t) ⟨(j 0).val, hp⟩ ⟨(j 1).val, hq⟩).trans ?_
  unfold rowProd
  refine Finset.sum_congr rfl fun k _ => ?_
  have h0 : iblk2 V c 0 t (ix2 (⟨(j 0).val, hp⟩ : Fin 2000) k)
      = V c main_v47 (ix2 (⟨((((cfg2.win 2).blk t).view.emb j) 0).val, ((((cfg2.win 2).blk t).view.emb j) 0).isLt⟩ : Fin 50000) k) := by
    show V c main_v47 (((cfg2.win 0).blk t).view.emb (ix2 (⟨(j 0).val, hp⟩ : Fin 2000) k)) = _
    refine congrArg (V c main_v47) (funext fun a => Fin.ext ?_)
    match a with
    | ⟨0, _⟩ =>
      show win2_0.index t (0 : Fin 2) * 2000 + 1 * (j 0).val = win2_2.index t (0 : Fin 2) * 2000 + 1 * (j 0).val
      omega
    | ⟨1, _⟩ =>
      show win2_0.index t (1 : Fin 2) * 256 + 1 * k.val = k.val
      omega
  have h1 : iblk2 V c 1 t (ix2 k (⟨(j 1).val, hq⟩ : Fin 128))
      = V c main_arg6 (ix2 k (⟨((((cfg2.win 2).blk t).view.emb j) 1).val, ((((cfg2.win 2).blk t).view.emb j) 1).isLt⟩ : Fin 128)) := by
    show V c main_arg6 (((cfg2.win 1).blk t).view.emb (ix2 k (⟨(j 1).val, hq⟩ : Fin 128))) = _
    refine congrArg (V c main_arg6) (funext fun a => Fin.ext ?_)
    match a with
    | ⟨0, _⟩ =>
      show win2_1.index t (0 : Fin 2) * 256 + 1 * k.val = k.val
      omega
    | ⟨1, _⟩ =>
      show win2_1.index t (1 : Fin 2) * 128 + 1 * (j 1).val = win2_2.index t (1 : Fin 2) * 128 + 1 * (j 1).val
      omega
  rw [h0, h1]

/-- An index of the result is in point `t`'s block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v48).slice (win2_2.rect t)).set ↔ _
  rw [View.set_slice_whole, Rect.mem_set_unit]
  exact Iff.rfl

/-- Every entry of the result lies in the block of the point `row / 2000`. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e00, e01, e10, e11, e20, e21⟩ := idx_facts t
  have ht : t.val = (i 0).val / 2000 := rfl
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 128 ≤ (i 1).val ∧ (i 1).val < win2_2.index t (1 : Fin 2) * 128 + 128
    omega

/-- The result array after the region: the product of the two operand arrays as the region found them. -/
theorem final (c : Dev nD) : (dat2 V c).arrAt 2 cfg2.N = rowProd (V c main_v47) (V c main_arg6) :=
  (dat2 V c).arrAt_eq_of_cover 2 (rowProd (V c main_v47) (V c main_arg6)) (fun t _ => flushed_eq V c t) cover

end Cert.KernelIdeal.Hand.R2

end
-- ==== Proof.Region3.lean ====
/-
  Pallas region 3: bias-add and layer normalisation, tiled over the rows.  Each of the 25 grid points loads rows
  `2000 t … 2000 t + 1999` of the aggregated matrix and the three parameter rows (bias, scale, shift, each held as a `[1, 128]`
  array), normalises every row of the block over its 128 lanes, and writes the block back.  A normalised row depends only on
  the same row of the operand, so the blocks written back are the blocks of ONE matrix, `rowsLN`, whose row `i` is
  `RowNorm.lnRow` of row `i`; the 25 blocks cover the result, which therefore ends holding that matrix, whatever the
  region's entry contents `V` are.
-/
import proofs.«155982_j13099650253144_1_alg».proof.Proof.Gen.KernelIdeal.Frame
import proofs.«155982_j13099650253144_1_alg».proof.Proof.LibRowNorm
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R3

open Cert.KernelIdeal Cert.KernelIdeal.Gen

/-- The divisor 128 and the ε of the normalisation, as the extended reals the kernel's literals denote. -/
abbrev dW : EReal := (Scalar.ofBits (F := Ideal) .f32 0x43000000#32 : Ideal .f32)
abbrev eps : EReal := (Scalar.ofBits (F := Ideal) .f32 0x3727C5AC#32 : Ideal .f32)

/-- The matrix whose every row is the layer-normalised row of `a` plus the bias row. -/
def rowsLN (a : S50000x128.Idx → EReal) (b1 b2 b3 : S1x128.Idx → EReal) : S50000x128.Idx → EReal :=
  fun i => (RowNorm.lnRow dW eps (fun k : Fin 128 => a (ix2 (⟨(i 0).val, (i 0).isLt⟩ : Fin 50000) k))
    (fun k => b1 (ix2 (0 : Fin 1) k)) (fun k => b2 (ix2 (0 : Fin 1) k)) (fun k => b3 (ix2 (0 : Fin 1) k))
    (⟨(i 1).val, (i 1).isLt⟩ : Fin 128))

theorem hz : (![0, 0] : Fin 2 → Nat) = fun _ => 0 := funext fun a => by fin_cases a <;> rfl

/-- The body's payload is the block computation of `RowNorm`. -/
theorem pay_eq (x0 : Vec Ideal S2000x128 .f32) (x1 x2 x3 : Vec Ideal S1x128 .f32) :
    k3_pay1 x0 x1 x2 x3 = (RowNorm.lnBlock shapeCasts_S2000x128_S2000x128 shapeCasts_S1x128_S1x128 broadcasts_S1x128_S2000x128 reduces_S2000x128_S2000 (.inl rfl) rfl
      shapeCasts_S2000_S2000x1 broadcasts_S2000x1_S2000x128 (Scalar.ofBits .f32 0x43000000#32) (Scalar.ofBits .f32 0x3727C5AC#32) x0 x1 x2 x3) := rfl

/-- The payload at `(p, q)`: the normalised row `p` of the block at `q`. -/
theorem pay_apply (x0 : Vec Ideal S2000x128 .f32) (x1 x2 x3 : Vec Ideal S1x128 .f32) (p : Fin 2000) (q : Fin 128) :
    k3_pay1 x0 x1 x2 x3 (ix2 p q) = (RowNorm.lnRow dW eps (fun k : Fin 128 => x0 (ix2 p k))
      (fun k => x1 (ix2 (0 : Fin 1) k)) (fun k => x2 (ix2 (0 : Fin 1) k)) (fun k => x3 (ix2 (0 : Fin 1) k)) q) := by
  rw [pay_eq]
  exact RowNorm.lnBlock_apply _ _ _ _ _ _ _ _ _ _ x0 x1 x2 x3 p q

/-- The printed index maps, decided over the grid: the operand's and the result's blocks are the row blocks `t`, each
    parameter's block is its whole array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

set_option maxHeartbeats 4000000 in
/-- What point `t` writes back is block `t` of `rowsLN` of the region's four operand arrays. -/
theorem flushed_eq (c : Dev nD) (t : Fin cfg3.N) :
    (dat3 V c).flushed 4 t = ((cfg3.win 4).blk t).view.read (Elt Ideal) (rowsLN (V c main_v84) (V c main_v85) (V c main_v86) (V c main_v87)) := by
  show (cfg3.win 4).cut (grid3.coords t) ((dat3 V c).after 4 t) = _
  rw [after3_4]
  unfold out3_4
  rw [View.canon_unit_zero hz]
  simp only [View.ld_unit_zero (S := S2000x128) hz, View.ld_unit_zero (S := S1x128) hz]
  obtain ⟨e00, e01, e10, e11, e20, e21, e30, e31, e40, e41⟩ := idx_facts t
  funext j
  have hp : (j 0).val < 2000 := Nat.lt_of_lt_of_le (j 0).isLt ((cfg3.win 4).xsize_le (grid3.coords t) 0)
  have hq : (j 1).val < 128 := Nat.lt_of_lt_of_le (j 1).isLt ((cfg3.win 4).xsize_le (grid3.coords t) 1)
  have hx : (cfg3.win 4).xinj (grid3.coords t) j = ix2 (⟨(j 0).val, hp⟩ : Fin 2000) (⟨(j 1).val, hq⟩ : Fin 128) :=
    funext fun a => by
      match a with
      | ⟨0, _⟩ => rfl
      | ⟨1, _⟩ => rfl
  show k3_pay1 (iblk3 V c 0 t) (iblk3 V c 1 t) (iblk3 V c 2 t) (iblk3 V c 3 t) ((cfg3.win 4).xinj (grid3.coords t) j)
      = rowsLN (V c main_v84) (V c main_v85) (V c main_v86) (V c main_v87) (((cfg3.win 4).blk t).view.emb j)
  rw [hx]
  refine (pay_apply (iblk3 V c 0 t) (iblk3 V c 1 t) (iblk3 V c 2 t) (iblk3 V c 3 t) ⟨(j 0).val, hp⟩ ⟨(j 1).val, hq⟩).trans ?_
  unfold rowsLN
  have h0 : (fun k : Fin 128 => iblk3 V c 0 t (ix2 (⟨(j 0).val, hp⟩ : Fin 2000) k))
      = fun k : Fin 128 => V c main_v84 (ix2 (⟨((((cfg3.win 4).blk t).view.emb j) 0).val, ((((cfg3.win 4).blk t).view.emb j) 0).isLt⟩ : Fin 50000) k) :=
    funext fun k => by
      show V c main_v84 (((cfg3.win 0).blk t).view.emb (ix2 (⟨(j 0).val, hp⟩ : Fin 2000) k)) = _
      refine congrArg (V c main_v84) (funext fun a => Fin.ext ?_)
      match a with
      | ⟨0, _⟩ =>
        show win3_0.index t (0 : Fin 2) * 2000 + 1 * (j 0).val = win3_4.index t (0 : Fin 2) * 2000 + 1 * (j 0).val
        omega
      | ⟨1, _⟩ =>
        show win3_0.index t (1 : Fin 2) * 128 + 1 * k.val = k.val
        omega
  have h1 : (fun k : Fin 128 => iblk3 V c 1 t (ix2 (0 : Fin 1) k)) = fun k : Fin 128 => V c main_v85 (ix2 (0 : Fin 1) k) :=
    funext fun k => by
      show V c main_v85 (((cfg3.win 1).blk t).view.emb (ix2 (0 : Fin 1) k)) = _
      refine congrArg (V c main_v85) (funext fun a => Fin.ext ?_)
      match a with
      | ⟨0, _⟩ =>
        show win3_1.index t (0 : Fin 2) * 1 + 1 * 0 = 0
        omega
      | ⟨1, _⟩ =>
        show win3_1.index t (1 : Fin 2) * 128 + 1 * k.val = k.val
        omega
  have h2 : (fun k : Fin 128 => iblk3 V c 2 t (ix2 (0 : Fin 1) k)) = fun k : Fin 128 => V c main_v86 (ix2 (0 : Fin 1) k) :=
    funext fun k => by
      show V c main_v86 (((cfg3.win 2).blk t).view.emb (ix2 (0 : Fin 1) k)) = _
      refine congrArg (V c main_v86) (funext fun a => Fin.ext ?_)
      match a with
      | ⟨0, _⟩ =>
        show win3_2.index t (0 : Fin 2) * 1 + 1 * 0 = 0
        omega
      | ⟨1, _⟩ =>
        show win3_2.index t (1 : Fin 2) * 128 + 1 * k.val = k.val
        omega
  have h3 : (fun k : Fin 128 => iblk3 V c 3 t (ix2 (0 : Fin 1) k)) = fun k : Fin 128 => V c main_v87 (ix2 (0 : Fin 1) k) :=
    funext fun k => by
      show V c main_v87 (((cfg3.win 3).blk t).view.emb (ix2 (0 : Fin 1) k)) = _
      refine congrArg (V c main_v87) (funext fun a => Fin.ext ?_)
      match a with
      | ⟨0, _⟩ =>
        show win3_3.index t (0 : Fin 2) * 1 + 1 * 0 = 0
        omega
      | ⟨1, _⟩ =>
        show win3_3.index t (1 : Fin 2) * 128 + 1 * k.val = k.val
        omega
  have hq' : (⟨(j 1).val, hq⟩ : Fin 128) = ⟨((((cfg3.win 4).blk t).view.emb j) 1).val, ((((cfg3.win 4).blk t).view.emb j) 1).isLt⟩ :=
    Fin.ext (by
      show (j 1).val = win3_4.index t (1 : Fin 2) * 128 + 1 * (j 1).val
      omega)
  exact RowNorm.lnRow_congr h0 h1 h2 h3 hq'

/-- An index of the result is in point `t`'s block iff each coordinate is in the block's range on its axis. -/
theorem mem_blk (t : Fin cfg3.N) (i : S50000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v88).slice (win3_4.rect t)).set ↔ _
  rw [View.set_slice_whole, Rect.mem_set_unit]
  exact Iff.rfl

/-- Every entry of the result lies in the block of the point `row / 2000`. -/
theorem cover (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨e00, e01, e10, e11, e20, e21, e30, e31, e40, e41⟩ := idx_facts t
  have ht : t.val = (i 0).val / 2000 := rfl
  refine ⟨t, flush3_4 t, ?_⟩
  rw [mem_blk]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 128 ≤ (i 1).val ∧ (i 1).val < win3_4.index t (1 : Fin 2) * 128 + 128
    omega

/-- The result array after the region: `rowsLN` of the four operand arrays as the region found them. -/
theorem final (c : Dev nD) : (dat3 V c).arrAt 4 cfg3.N = rowsLN (V c main_v84) (V c main_v85) (V c main_v86) (V c main_v87) :=
  (dat3 V c).arrAt_eq_of_cover 4 (rowsLN (V c main_v84) (V c main_v85) (V c main_v86) (V c main_v87)) (fun t _ => flushed_eq V c t) cover

end Cert.KernelIdeal.Hand.R3

end
-- ==== Proof.Bridge.lean ====
/-
  The four regions' whole-array functions are the reference's stages.

  The two matrix products: the kernel's `rowProd x w` has at `(i, j)` the sum over `k` of `x (i, k) · w (k, j)`, which is what
  the host's `dot_general` with one contracted axis is over the extended reals.  The two normalisations: the kernel's
  `rowsLN` is `RowNorm.lnRow` of each row of its operand with the three parameter rows, and so is the reference's chain of
  host operations (`RowNorm.lnHost`); a parameter vector laid out as a `[1, D]` row reads, at `(0, k)`, its entry `k`.
-/
import proofs.«155982_j13099650253144_1_alg».proof.Proof.Region0
import proofs.«155982_j13099650253144_1_alg».proof.Proof.Region1
import proofs.«155982_j13099650253144_1_alg».proof.Proof.Region2
import proofs.«155982_j13099650253144_1_alg».proof.Proof.Region3
import proofs.«155982_j13099650253144_1_alg».proof.Proof.RefRead
import proofs.«155982_j13099650253144_1_alg».proof.Proof.LibRowNorm
import Idealize.ShloMosaic.Lib.ValueLayout

set_option maxRecDepth 16384

noncomputable section

namespace Cert.Bridge

open Idealize.ShloMosaic Idealize.ShloMosaic.ValueIdx
open Cert.ReferenceIdeal Cert.ReferenceIdeal.Gen Cert.ReferenceIdeal.ReadP

/-- The first product. -/
theorem prod1_eq (x0 : (⟨Cert.ReferenceIdeal.S50000x512, .f32⟩ : BufTy).Contents (Elt Ideal)) (x2 : (⟨Cert.ReferenceIdeal.S512x256, .f32⟩ : BufTy).Contents (Elt Ideal)) :
    Cert.KernelIdeal.Hand.R0.rowProd x0 x2 = val_main_v7 (F := Ideal) x0 x2 := by
  funext i
  refine Eq.trans ?_ (val_main_v7_apply x0 x2 i).symm
  unfold Cert.KernelIdeal.Hand.R0.rowProd
  refine Finset.sum_congr rfl fun k _ => ?_
  exact congrArg₂ (· * ·)
    (congrArg x0 (funext fun a => Fin.ext (by
      match a with
      | ⟨0, _⟩ => rfl
      | ⟨1, _⟩ => rfl)))
    (congrArg x2 (funext fun a => Fin.ext (by
      match a with
      | ⟨0, _⟩ => rfl
      | ⟨1, _⟩ => rfl)))

/-- The second product, of the reference's first layer with the second weight matrix. -/
theorem prod2_eq (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S512x256, .f32⟩ : BufTy).Contents (Elt Ideal)) (x3 : (⟨Cert.ReferenceIdeal.S256, .f32⟩ : BufTy).Contents (Elt Ideal)) (x4 : (⟨Cert.ReferenceIdeal.S256, .f32⟩ : BufTy).Contents (Elt Ideal)) (x5 : (⟨Cert.ReferenceIdeal.S256, .f32⟩ : BufTy).Contents (Elt Ideal)) (x6 : (⟨Cert.ReferenceIdeal.S256x128, .f32⟩ : BufTy).Contents (Elt Ideal)) :
    Cert.KernelIdeal.Hand.R2.rowProd (val_main_v71 (F := Ideal) x0 x1 x2 x3 x4 x5) x6 = val_main_v72 (F := Ideal) x0 x1 x2 x3 x4 x5 x6 := by
  funext i
  refine Eq.trans ?_ (val_main_v72_apply x0 x1 x2 x3 x4 x5 x6 i).symm
  unfold Cert.KernelIdeal.Hand.R2.rowProd
  refine Finset.sum_congr rfl fun k _ => ?_
  exact congrArg₂ (· * ·)
    (congrArg (val_main_v71 (F := Ideal) x0 x1 x2 x3 x4 x5) (funext fun a => Fin.ext (by
      match a with
      | ⟨0, _⟩ => rfl
      | ⟨1, _⟩ => rfl)))
    (congrArg x6 (funext fun a => Fin.ext (by
      match a with
      | ⟨0, _⟩ => rfl
      | ⟨1, _⟩ => rfl)))

/-- The reference's first normalisation stage is the host spelling of `RowNorm` on its aggregated matrix, under a maximum with the zero splat. -/
theorem ref_lnfirst (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S512x256, .f32⟩ : BufTy).Contents (Elt Ideal)) (x3 : (⟨Cert.ReferenceIdeal.S256, .f32⟩ : BufTy).Contents (Elt Ideal)) (x4 : (⟨Cert.ReferenceIdeal.S256, .f32⟩ : BufTy).Contents (Elt Ideal)) (x5 : (⟨Cert.ReferenceIdeal.S256, .f32⟩ : BufTy).Contents (Elt Ideal)) :
    val_main_v71 (F := Ideal) x0 x1 x2 x3 x4 x5 = maximumf (RowNorm.lnHost bcast_S256_S1x256_1 bcast_S1x256_S50000x256_0_1 reducesTo_S50000x256_S50000_d1 h_S_
      bcast_S50000_S50000x1_0 bcast_S_S50000x1 bcast_S50000x1_S50000x256_0_1 0x43800000#32 0x3727C5AC#32 (val_main_v43 (F := Ideal) x0 x1 x2) x3 x4 x5)
      (broadcastInDim S50000x256 ![] bcast_S_S50000x256 (constant S_ .f32 0x00000000#32)) := rfl

/-- The first normalisation region's matrix, on the reference's aggregated matrix and the parameter vectors laid out as rows, is
    the reference's stage: both are `RowNorm.lnRow` of each row. -/
theorem lnfirst_eq (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S512x256, .f32⟩ : BufTy).Contents (Elt Ideal)) (x3 : (⟨Cert.ReferenceIdeal.S256, .f32⟩ : BufTy).Contents (Elt Ideal)) (x4 : (⟨Cert.ReferenceIdeal.S256, .f32⟩ : BufTy).Contents (Elt Ideal)) (x5 : (⟨Cert.ReferenceIdeal.S256, .f32⟩ : BufTy).Contents (Elt Ideal)) :
    Cert.KernelIdeal.Hand.R1.rowsLN (val_main_v43 (F := Ideal) x0 x1 x2) (shapeCast Cert.KernelIdeal.S1x256 x3 Cert.KernelIdeal.Gen.shapeCasts_S256_S1x256) (shapeCast Cert.KernelIdeal.S1x256 x4 Cert.KernelIdeal.Gen.shapeCasts_S256_S1x256) (shapeCast Cert.KernelIdeal.S1x256 x5 Cert.KernelIdeal.Gen.shapeCasts_S256_S1x256)
      = val_main_v71 (F := Ideal) x0 x1 x2 x3 x4 x5 := by
  rw [ref_lnfirst]
  funext i
  obtain ⟨p, q, rfl⟩ : ∃ (p : Fin 50000) (q : Fin 256), i = ix2 p q := ⟨i 0, i 1, eq_ix2 i⟩
  have hb : ∀ x : (⟨S256, .f32⟩ : BufTy).Contents (Elt Ideal),
      (fun k : Fin 256 => shapeCast Cert.KernelIdeal.S1x256 x Cert.KernelIdeal.Gen.shapeCasts_S256_S1x256 (ix2 (0 : Fin 1) k)) = fun k => x (ix1 k) :=
    fun x => funext fun k => shapeCast_a_1a_apply x _ 0 k
  have hh := RowNorm.lnHost_apply bcast_S256_S1x256_1 bcast_S1x256_S50000x256_0_1 reducesTo_S50000x256_S50000_d1 h_S_
      bcast_S50000_S50000x1_0 bcast_S_S50000x1 bcast_S50000x1_S50000x256_0_1 0x43800000#32 0x3727C5AC#32 (by decide) (val_main_v43 (F := Ideal) x0 x1 x2) x3 x4 x5 p q
  have hmax : ∀ (A B : FVec Ideal S50000x256 .f32) (j : S50000x256.Idx), maximumf A B j = max (A j) (B j) := fun _ _ _ => rfl
  rw [hmax, hh]
  unfold Cert.KernelIdeal.Hand.R1.rowsLN
  exact congrArg₂ max (RowNorm.lnRow_congr rfl (hb x3) (hb x4) (hb x5) rfl) rfl

/-- The reference's second normalisation stage is the host spelling of `RowNorm` on its aggregated matrix. -/
theorem ref_lnsecond (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S512x256, .f32⟩ : BufTy).Contents (Elt Ideal)) (x3 : (⟨Cert.ReferenceIdeal.S256, .f32⟩ : BufTy).Contents (Elt Ideal)) (x4 : (⟨Cert.ReferenceIdeal.S256, .f32⟩ : BufTy).Contents (Elt Ideal)) (x5 : (⟨Cert.ReferenceIdeal.S256, .f32⟩ : BufTy).Contents (Elt Ideal)) (x6 : (⟨Cert.ReferenceIdeal.S256x128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) :
    val_main_v135 (F := Ideal) x0 x1 x2 x3 x4 x5 x6 x7 x8 x9 = RowNorm.lnHost bcast_S128_S1x128_1 bcast_S1x128_S50000x128_0_1 reducesTo_S50000x128_S50000_d1 h_S_
      bcast_S50000_S50000x1_0 bcast_S_S50000x1 bcast_S50000x1_S50000x128_0_1 0x43000000#32 0x3727C5AC#32 (val_main_v108 (F := Ideal) x0 x1 x2 x3 x4 x5 x6) x7 x8 x9 := rfl

/-- The second normalisation region's matrix, on the reference's aggregated matrix and the parameter vectors laid out as rows, is
    the reference's stage: both are `RowNorm.lnRow` of each row. -/
theorem lnsecond_eq (x0 : (⟨Cert.ReferenceIdeal.S50000x512, .f32⟩ : BufTy).Contents (Elt Ideal)) (x1 : (⟨Cert.ReferenceIdeal.S2x800000, .i32⟩ : BufTy).Contents (Elt Ideal)) (x2 : (⟨Cert.ReferenceIdeal.S512x256, .f32⟩ : BufTy).Contents (Elt Ideal)) (x3 : (⟨Cert.ReferenceIdeal.S256, .f32⟩ : BufTy).Contents (Elt Ideal)) (x4 : (⟨Cert.ReferenceIdeal.S256, .f32⟩ : BufTy).Contents (Elt Ideal)) (x5 : (⟨Cert.ReferenceIdeal.S256, .f32⟩ : BufTy).Contents (Elt Ideal)) (x6 : (⟨Cert.ReferenceIdeal.S256x128, .f32⟩ : BufTy).Contents (Elt Ideal)) (x7 : (⟨Cert.ReferenceIdeal.S128, .f32⟩ : BufTy).Contents (Elt Ideal)) (x8 : (⟨Cert.ReferenceIdeal.S128, .f32⟩ : BufTy).Contents (Elt Ideal)) (x9 : (⟨Cert.ReferenceIdeal.S128, .f32⟩ : BufTy).Contents (Elt Ideal)) :
    Cert.KernelIdeal.Hand.R3.rowsLN (val_main_v108 (F := Ideal) x0 x1 x2 x3 x4 x5 x6) (shapeCast Cert.KernelIdeal.S1x128 x7 Cert.KernelIdeal.Gen.shapeCasts_S128_S1x128) (shapeCast Cert.KernelIdeal.S1x128 x8 Cert.KernelIdeal.Gen.shapeCasts_S128_S1x128) (shapeCast Cert.KernelIdeal.S1x128 x9 Cert.KernelIdeal.Gen.shapeCasts_S128_S1x128)
      = val_main_v135 (F := Ideal) x0 x1 x2 x3 x4 x5 x6 x7 x8 x9 := by
  rw [ref_lnsecond]
  funext i
  obtain ⟨p, q, rfl⟩ : ∃ (p : Fin 50000) (q : Fin 128), i = ix2 p q := ⟨i 0, i 1, eq_ix2 i⟩
  have hb : ∀ x : (⟨S128, .f32⟩ : BufTy).Contents (Elt Ideal),
      (fun k : Fin 128 => shapeCast Cert.KernelIdeal.S1x128 x Cert.KernelIdeal.Gen.shapeCasts_S128_S1x128 (ix2 (0 : Fin 1) k)) = fun k => x (ix1 k) :=
    fun x => funext fun k => shapeCast_a_1a_apply x _ 0 k
  have hh := RowNorm.lnHost_apply bcast_S128_S1x128_1 bcast_S1x128_S50000x128_0_1 reducesTo_S50000x128_S50000_d1 h_S_
      bcast_S50000_S50000x1_0 bcast_S_S50000x1 bcast_S50000x1_S50000x128_0_1 0x43000000#32 0x3727C5AC#32 (by decide) (val_main_v108 (F := Ideal) x0 x1 x2 x3 x4 x5 x6) x7 x8 x9 p q
  refine Eq.trans ?_ hh.symm
  unfold Cert.KernelIdeal.Hand.R3.rowsLN
  exact RowNorm.lnRow_congr rfl (hb x7) (hb x8) (hb x9) rfl

end Cert.Bridge

end
-- ==== Proof.KernelValue.lean ====
/-
  The idealized kernel's result as a function of its arguments.

  The buffer contents at @main's segment boundaries are a fold `W0 … W11` from the launch memory.  Reading the fold one
  segment at a time: the edge lists are built before the first region; the first region leaves the product of `x` and
  `W1`; the host operations that follow aggregate it along the edges; the second region normalises the rows; the third
  region multiplies by `W2`; the host operations aggregate again; the fourth region normalises again.  At each boundary the
  buffer that matters holds the reference's stage of the same name, computed from the same arguments, so the result buffer
  ends at the reference's last stage.  A buffer that a segment neither writes nor stages is read through it unchanged.
-/
import proofs.«155982_j13099650253144_1_alg».proof.Proof.KernelRun
import proofs.«155982_j13099650253144_1_alg».proof.Proof.Fold1
import proofs.«155982_j13099650253144_1_alg».proof.Proof.Fold2
import proofs.«155982_j13099650253144_1_alg».proof.Proof.Fold1Agg
import proofs.«155982_j13099650253144_1_alg».proof.Proof.Fold2Agg
import proofs.«155982_j13099650253144_1_alg».proof.Proof.Bridge

set_option maxRecDepth 16384

noncomputable section

namespace Cert.KernelIdeal.Hand

open Cert.KernelIdeal Cert.KernelIdeal.Gen
open Idealize.ShloMosaic Idealize.ShloMosaic.TcCoe Idealize.SL.Sem
open Cert.ReferenceIdeal.ReadP

variable (m : (ℓ : Loc nD τ sig) → Buf (Elt Ideal) ℓ) (ρ : Dev nD → PrngReg) (c : Dev nD)

/-! ## Arguments and edge lists read through the segments that leave them alone -/

theorem at2_arg3 : W2 m ρ c (Proc.devRef .tc main_arg3) = m ((c.tc : Thread nD τ).loc main_arg3) :=
  (W2_of_ne m ρ c main_arg3 (by decide)).trans (Fold.launch_keep_arg3 (W0 m ρ c))
theorem at2_arg4 : W2 m ρ c (Proc.devRef .tc main_arg4) = m ((c.tc : Thread nD τ).loc main_arg4) :=
  (W2_of_ne m ρ c main_arg4 (by decide)).trans (Fold.launch_keep_arg4 (W0 m ρ c))
theorem at2_arg5 : W2 m ρ c (Proc.devRef .tc main_arg5) = m ((c.tc : Thread nD τ).loc main_arg5) :=
  (W2_of_ne m ρ c main_arg5 (by decide)).trans (Fold.launch_keep_arg5 (W0 m ρ c))
theorem at2_arg6 : W2 m ρ c (Proc.devRef .tc main_arg6) = m ((c.tc : Thread nD τ).loc main_arg6) :=
  (W2_of_ne m ρ c main_arg6 (by decide)).trans (Fold.launch_keep_arg6 (W0 m ρ c))
theorem at2_arg7 : W2 m ρ c (Proc.devRef .tc main_arg7) = m ((c.tc : Thread nD τ).loc main_arg7) :=
  (W2_of_ne m ρ c main_arg7 (by decide)).trans (Fold.launch_keep_arg7 (W0 m ρ c))
theorem at2_arg8 : W2 m ρ c (Proc.devRef .tc main_arg8) = m ((c.tc : Thread nD τ).loc main_arg8) :=
  (W2_of_ne m ρ c main_arg8 (by decide)).trans (Fold.launch_keep_arg8 (W0 m ρ c))
theorem at2_arg9 : W2 m ρ c (Proc.devRef .tc main_arg9) = m ((c.tc : Thread nD τ).loc main_arg9) :=
  (W2_of_ne m ρ c main_arg9 (by decide)).trans (Fold.launch_keep_arg9 (W0 m ρ c))
theorem at5_arg6 : W5 m ρ c (Proc.devRef .tc main_arg6) = m ((c.tc : Thread nD τ).loc main_arg6) :=
  (Fold.mid1_keep_main_arg6 (W2 m ρ c)).trans (at2_arg6 m ρ c)
theorem at5_arg7 : W5 m ρ c (Proc.devRef .tc main_arg7) = m ((c.tc : Thread nD τ).loc main_arg7) :=
  (Fold.mid1_keep_main_arg7 (W2 m ρ c)).trans (at2_arg7 m ρ c)
theorem at5_arg8 : W5 m ρ c (Proc.devRef .tc main_arg8) = m ((c.tc : Thread nD τ).loc main_arg8) :=
  (Fold.mid1_keep_main_arg8 (W2 m ρ c)).trans (at2_arg8 m ρ c)
theorem at5_arg9 : W5 m ρ c (Proc.devRef .tc main_arg9) = m ((c.tc : Thread nD τ).loc main_arg9) :=
  (Fold.mid1_keep_main_arg9 (W2 m ρ c)).trans (at2_arg9 m ρ c)
theorem at6_arg6 : W6 m ρ c (Proc.devRef .tc main_arg6) = m ((c.tc : Thread nD τ).loc main_arg6) :=
  (W6_of_ne m ρ c main_arg6 (by decide)).trans (at5_arg6 m ρ c)
theorem at7_arg7 : W7 m ρ c (Proc.devRef .tc main_arg7) = m ((c.tc : Thread nD τ).loc main_arg7) :=
  (W7_of_ne m ρ c main_arg7 (by decide)).trans ((W6_of_ne m ρ c main_arg7 (by decide)).trans (at5_arg7 m ρ c))
theorem at7_arg8 : W7 m ρ c (Proc.devRef .tc main_arg8) = m ((c.tc : Thread nD τ).loc main_arg8) :=
  (W7_of_ne m ρ c main_arg8 (by decide)).trans ((W6_of_ne m ρ c main_arg8 (by decide)).trans (at5_arg8 m ρ c))
theorem at7_arg9 : W7 m ρ c (Proc.devRef .tc main_arg9) = m ((c.tc : Thread nD τ).loc main_arg9) :=
  (W7_of_ne m ρ c main_arg9 (by decide)).trans ((W6_of_ne m ρ c main_arg9 (by decide)).trans (at5_arg9 m ρ c))

theorem at2_src : W2 m ρ c (Proc.devRef .tc main_v3) = val_main_v3 (F := Ideal) (m ((c.tc : Thread nD τ).loc main_arg1)) :=
  (W2_of_ne m ρ c main_v3 (by decide)).trans (Fold.launch_src (W0 m ρ c))
theorem at2_dst : W2 m ρ c (Proc.devRef .tc main_v6) = val_main_v6 (F := Ideal) (m ((c.tc : Thread nD τ).loc main_arg1)) :=
  (W2_of_ne m ρ c main_v6 (by decide)).trans (Fold.launch_dst (W0 m ρ c))
theorem at7_src : W7 m ρ c (Proc.devRef .tc main_v3) = val_main_v3 (F := Ideal) (m ((c.tc : Thread nD τ).loc main_arg1)) :=
  (W7_of_ne m ρ c main_v3 (by decide)).trans ((W6_of_ne m ρ c main_v3 (by decide)).trans
    ((Fold.mid1_keep_main_v3 (W2 m ρ c)).trans (at2_src m ρ c)))
theorem at7_dst : W7 m ρ c (Proc.devRef .tc main_v6) = val_main_v6 (F := Ideal) (m ((c.tc : Thread nD τ).loc main_arg1)) :=
  (W7_of_ne m ρ c main_v6 (by decide)).trans ((W6_of_ne m ρ c main_v6 (by decide)).trans
    ((Fold.mid1_keep_main_v6 (W2 m ρ c)).trans (at2_dst m ρ c)))

/-! ## The stages -/

/-- After the first region: the first product. -/
theorem at2_prod : W2 m ρ c (Proc.devRef .tc main_v7) = val_main_v7 (F := Ideal) (m ((c.tc : Thread nD τ).loc main_arg0)) (m ((c.tc : Thread nD τ).loc main_arg2)) := by
  refine (W2_arr m ρ c 2).trans ((R0.final (V1 m ρ) c).trans ?_)
  rw [show V1 m ρ c main_arg0 = m ((c.tc : Thread nD τ).loc main_arg0) from Fold.launch_keep_arg0 (W0 m ρ c),
    show V1 m ρ c main_arg2 = m ((c.tc : Thread nD τ).loc main_arg2) from Fold.launch_keep_arg2 (W0 m ρ c)]
  exact Cert.Bridge.prod1_eq _ _

/-- Before the second region: the first aggregation. -/
theorem at5_agg : W5 m ρ c (Proc.devRef .tc main_v43) = val_main_v43 (F := Ideal) (m ((c.tc : Thread nD τ).loc main_arg0)) (m ((c.tc : Thread nD τ).loc main_arg1)) (m ((c.tc : Thread nD τ).loc main_arg2)) :=
  Fold.first_agg (W2 m ρ c) _ _ _ (at2_prod m ρ c) (at2_src m ρ c) (at2_dst m ρ c)

/-- After the second region: the first layer's output. -/
theorem at6_layer : W6 m ρ c (Proc.devRef .tc main_v47) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 4).trans ((R1.final (V5 m ρ) c).trans ?_)
  rw [show V5 m ρ c main_v43 = _ from at5_agg m ρ c,
    show V5 m ρ c main_v44 = _ from (Fold.mid1_bias (W2 m ρ c)).trans (congrArg (fun x => shapeCast S1x256 x shapeCasts_S256_S1x256) (at2_arg3 m ρ c)),
    show V5 m ρ c main_v45 = _ from (Fold.mid1_scale (W2 m ρ c)).trans (congrArg (fun x => shapeCast S1x256 x shapeCasts_S256_S1x256) (at2_arg4 m ρ c)),
    show V5 m ρ c main_v46 = _ from (Fold.mid1_shift (W2 m ρ c)).trans (congrArg (fun x => shapeCast S1x256 x shapeCasts_S256_S1x256) (at2_arg5 m ρ c))]
  exact Cert.Bridge.lnfirst_eq _ _ _ _ _ _

/-- After the third region: the second product. -/
theorem at7_prod : W7 m ρ c (Proc.devRef .tc main_v48) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W7_arr m ρ c 2).trans ((R2.final (V6 m ρ) c).trans ?_)
  rw [show V6 m ρ c main_v47 = _ from at6_layer m ρ c, show V6 m ρ c main_arg6 = _ from at6_arg6 m ρ c]
  exact Cert.Bridge.prod2_eq _ _ _ _ _ _ _

/-- Before the fourth region: the second aggregation. -/
theorem at10_agg : W10 m ρ c (Proc.devRef .tc main_v84) = val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  Fold.second_agg (W7 m ρ c) _ _ _ _ _ _ _ (at7_prod m ρ c) (at7_src m ρ c) (at7_dst m ρ c)

/-- After the fourth region: the result. -/
theorem at11_out : W11 m ρ c (Proc.devRef .tc main_v88) = val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W11_arr m ρ c 4).trans ((R3.final (V10 m ρ) c).trans ?_)
  rw [show V10 m ρ c main_v84 = _ from at10_agg m ρ c,
    show V10 m ρ c main_v85 = _ from (Fold.mid2_bias (W7 m ρ c)).trans (congrArg (fun x => shapeCast S1x128 x shapeCasts_S128_S1x128) (at7_arg7 m ρ c)),
    show V10 m ρ c main_v86 = _ from (Fold.mid2_scale (W7 m ρ c)).trans (congrArg (fun x => shapeCast S1x128 x shapeCasts_S128_S1x128) (at7_arg8 m ρ c)),
    show V10 m ρ c main_v87 = _ from (Fold.mid2_shift (W7 m ρ c)).trans (congrArg (fun x => shapeCast S1x128 x shapeCasts_S128_S1x128) (at7_arg9 m ρ c))]
  exact Cert.Bridge.lnsecond_eq _ _ _ _ _ _ _ _ _ _

/-! ## The run -/

/-- Every weakly fair execution of the idealized kernel terminates with the result buffer at the reference's last stage
    of the arguments, and the arguments unchanged. -/
theorem run : θ_run defs (onTc (τ := τ) (main (F := Ideal))) ⟨m, fun _ => 0, ρ⟩ (fun r => ∀ c : Dev nD,
      r.2.mem ((c.tc : Thread nD τ).loc main_v88) = val_main_v135 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (at11_out m ρ c), (h c).2⟩) (run_out m ρ)

end Cert.KernelIdeal.Hand

end
-- ==== Proof.lean ====
/-
  The certificate of a two-layer graph convolution: `x ↦ LN₂ (A · (relu (LN₁ (A · (x W₁) + b₁)) W₂) + b₂)`, where `A` is the
  degree-normalised adjacency with self-loops built from `edge_index`.

  The kernel computes the two dense products and the two bias-add / layer-norm chains in four pallas regions, each tiled over
  25 blocks of 2000 rows, and leaves the sparse aggregation to host operations; the reference computes everything with host
  operations.  Over the extended reals the two agree stage by stage: a product tiled over rows is the whole product (a
  rounding to bf16 is the identity here), a row's normalisation does not depend on which block the row sits in, a lane sum
  and a host sum from zero are the same sum, and the aggregation between the regions is the reference's own sequence of
  operations applied to equal operands.  No law used needs finiteness, so the precondition is never opened.

  The three frames: the kernel's two are the generated frame certificates; the reference's is its run with the result
  dropped.  `preserves` is `True`: the ideal pass rewrote nothing.  `algebraic`: both runs end with the result buffer at the
  reference's last stage of the (agreeing) arguments.
-/
import proofs.«155982_j13099650253144_1_alg».proof.Defs
import proofs.«155982_j13099650253144_1_alg».proof.Proof.Gen.Kernel
import proofs.«155982_j13099650253144_1_alg».proof.Proof.Gen.Kernel.Skeleton
import proofs.«155982_j13099650253144_1_alg».proof.Proof.Gen.Kernel.Launch
import proofs.«155982_j13099650253144_1_alg».proof.Proof.Gen.Kernel.Points
import proofs.«155982_j13099650253144_1_alg».proof.Proof.Gen.Kernel.Frame
import proofs.«155982_j13099650253144_1_alg».proof.Proof.Gen.KernelIdeal
import proofs.«155982_j13099650253144_1_alg».proof.Proof.Gen.KernelIdeal.Skeleton
import proofs.«155982_j13099650253144_1_alg».proof.Proof.Gen.KernelIdeal.Launch
import proofs.«155982_j13099650253144_1_alg».proof.Proof.Gen.KernelIdeal.Points
import proofs.«155982_j13099650253144_1_alg».proof.Proof.Gen.KernelIdeal.Frame
import proofs.«155982_j13099650253144_1_alg».proof.Proof.Gen.ReferenceIdeal
import proofs.«155982_j13099650253144_1_alg».proof.Proof.Gen.Pre_finite_inputs
import proofs.«155982_j13099650253144_1_alg».proof.Proof.RefRun
import proofs.«155982_j13099650253144_1_alg».proof.Proof.RefRead
import proofs.«155982_j13099650253144_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end with the result at the reference's last stage of the arguments, which agree. -/
theorem algebraic : Cert.algebraic_KernelIdeal_ReferenceIdeal := by
  intro m ρ m' ρ' _ hagree
  refine ⟨fun c => Cert.ReferenceIdeal.ReadP.val_main_v135 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9⟩ := hagree c
  rw [Cert.ReferenceIdeal.ReadP.val_main_v135_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
